-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61_0)) (v1 : (c : Dev Cert.KernelIdeal.nD) → Buf (Elt Ideal) ((c.tc : Thread Cert.KernelIdeal.nD Cert.KernelIdeal.τ).loc Cert.KernelIdeal.main_v61_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_0) = v0 c
          ∧ r.2.mem ((c.tc : Thread Cert.KernelIdeal.nD Cert.KernelIdeal.τ).loc Cert.KernelIdeal.main_v61_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S128x10 1) : IVec S_ 1 :=
  let main_c_5 : IVec S_ 1 := constantI S_ 1 1#1
  let main_v17 : IVec S_ 1 := (fun x v => Host.reduce IntOp.andi x v reducesTo_S128x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x10 .f32) (main_arg5 : FVec F S10 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x10 .f32 := Host.absf main_arg4
  let main_cst_4 : FVec F S_ .f32 := constant S_ .f32 0x7F800000#32
  let main_v15 : FVec F S128x10 .f32 := broadcastInDim S128x10 ![] bcast_S_S128x10 main_cst_4
  let main_v16 : IVec S128x10 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x256 : Shape := ⟨2, ![2000, 256]⟩
abbrev S2000x128 : Shape := ⟨2, ![2000, 128]⟩
abbrev S1700000x128 : Shape := ⟨2, ![1700000, 128]⟩
abbrev S1x128 : Shape := ⟨2, ![1, 128]⟩
abbrev S100000x10 : Shape := ⟨2, ![100000, 10]⟩
abbrev S2000x10 : Shape := ⟨2, ![2000, 10]⟩
abbrev S1700000x10 : Shape := ⟨2, ![1700000, 10]⟩
abbrev S1x10 : Shape := ⟨2, ![1, 10]⟩
abbrev S2000 : Shape := ⟨1, ![2000]⟩
abbrev S2000x1 : Shape := ⟨2, ![2000, 1]⟩

abbrev nBuf : Space → Nat
  | .hbm => 85
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x10, .f32⟩
  | .hbm, ⟨5, _⟩ => ⟨S10, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x10, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x10, .f32⟩
  | .hbm, ⟨75, _⟩ => ⟨S1700000x1, .f32⟩
  | .hbm, ⟨76, _⟩ => ⟨S1700000x10, .f32⟩
  | .hbm, ⟨77, _⟩ => ⟨S1700000x10, .f32⟩
  | .hbm, ⟨78, _⟩ => ⟨S_, .f32⟩
  | .hbm, ⟨79, _⟩ => ⟨S100000x10, .f32⟩
  | .hbm, ⟨80, _⟩ => ⟨S1700000x1, .i32⟩
  | .hbm, ⟨81, _⟩ => ⟨S100000x10, .f32⟩
  | .hbm, ⟨82, _⟩ => ⟨S1x10, .f32⟩
  | .hbm, ⟨83, _⟩ => ⟨S100000x10, .f32⟩
  | .hbm, ⟨84, _⟩ => ⟨S100000x10, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x10, .f32⟩
  | .local _ .vmem, ⟨13, _⟩ => ⟨S2000x10, .f32⟩
  | .local _ .vmem, ⟨14, _⟩ => ⟨S2000x10, .f32⟩
  | .local _ .vmem, ⟨15, _⟩ => ⟨S2000x10, .f32⟩
  | .local _ .vmem, ⟨16, _⟩ => ⟨S2000x10, .f32⟩
  | .local _ .vmem, ⟨17, _⟩ => ⟨S1x10, .f32⟩
  | .local _ .vmem, ⟨18, _⟩ => ⟨S2000x10, .f32⟩
  | .local _ .vmem, ⟨19, _⟩ => ⟨S2000x10, .f32⟩
  | .local _ .vmem, ⟨20, _⟩ => ⟨S2000x10, .f32⟩
  | .local _ .vmem, ⟨21, _⟩ => ⟨S2000x10, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61_0 : Ref sig .tc := ⟨.hbm, 83, rfl⟩
abbrev main_v61_1 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x10 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x10 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x10 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x10_S128x10_0_0 : ∀ a, (![0, 0] : Fin 2 → Nat) a + S128x10.size a ≤ S128x10.size a
  h_S128x10 : 0 < S128x10.numel
  inb_S2000x10_S2000x10_0_0 : ∀ a, (![0, 0] : Fin 2 → Nat) a + S2000x10.size a ≤ S2000x10.size a
  h_S2000x10 : 0 < S2000x10.numel
  bcast_S1700000x1_S1700000x10_0_1 : S1700000x1.BroadcastsInDim S1700000x10 (![0, 1] : Fin 2 → Fin S1700000x10.rank)
  bcast_S_S100000x10 : S_.BroadcastsInDim S100000x10 (![] : Fin 0 → Fin S100000x10.rank)
  shapeCasts_S10_S1x10 : S10.ShapeCasts S1x10
  shapeCasts_S2000x10_S2000x10 : S2000x10.ShapeCasts S2000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  reduces_S2000x10_S2000 : S2000x10.Reduces [1] S2000
  shapeCasts_S2000_S2000x1 : S2000.ShapeCasts S2000x1
  broadcasts_S2000x1_S2000x10 : S2000x1.Broadcasts S2000x10
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x256_S256x128_S2000x128_1_0_0_1_n_n_wf : DotDims.WF S2000x256 S256x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x10_S2000x10_1_0_0_1_n_n_wf : DotDims.WF S2000x128 S128x10 S2000x10 [1] [0] [0] [1] [] []
  gather_S100000x10_S1700000x1_S1700000x10_1_0_n_n_0_1_110_wf : GatherDims.WF S100000x10 S1700000x1 S1700000x10 [1] [0] [] [0] [] 1 ![1, 10]
  scatter_S100000x10_S1700000x1_S1700000x10_1_0_0_1_wf : ScatterDims.WF S100000x10 S1700000x1 S1700000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x10.size a ≤ S128x10.size a
  hwx2_1 : ∀ i : grid2.Coords, EltTy.bits .f32 = 32 ∨ (Rect.block (s := S128x10) S128x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x10.size a ≤ S100000x10.size a
  hwx2_2 : ∀ i : grid2.Coords, EltTy.bits .f32 = 32 ∨ (Rect.block (s := S100000x10) S2000x10.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x10.size a ≤ S100000x10.size a
  hwx3_0 : ∀ i : grid3.Coords, EltTy.bits .f32 = 32 ∨ (Rect.block (s := S100000x10) S2000x10.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x10.size a ≤ S1x10.size a
  hwx3_1 : ∀ i : grid3.Coords, EltTy.bits .f32 = 32 ∨ (Rect.block (s := S1x10) S1x10.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x10.size a ≤ S100000x10.size a
  hwx3_2 : ∀ i : grid3.Coords, EltTy.bits .f32 = 32 ∨ (Rect.block (s := S100000x10) S2000x10.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x10.size a ≤ S100000x10.size a
  hwx3_3 : ∀ i : grid3.Coords, EltTy.bits .f32 = 32 ∨ (Rect.block (s := S100000x10) S2000x10.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x10_S2000x10_1_0_0_1_n_n : DotDims S2000x128 S128x10 S2000x10 where
  lhsContracting := [1]
  rhsContracting := [0]
  lhsNonContracting := [0]
  rhsNonContracting := [1]
  lhsBatch := []
  rhsBatch := []
  wf := dot_S2000x128_S128x10_S2000x10_1_0_0_1_n_n_wf
def gather_S100000x10_S1700000x1_S1700000x10_1_0_n_n_0_1_110 : GatherDims S100000x10 S1700000x1 S1700000x10 where
  offsetDims := [1]
  collapsedSliceDims := [0]
  operandBatchingDims := []
  startIndicesBatchingDims := []
  startIndexMap := [0]
  indexVectorDim := 1
  sliceSizes := ![1, 10]
  wf := gather_S100000x10_S1700000x1_S1700000x10_1_0_n_n_0_1_110_wf
def scatter_S100000x10_S1700000x1_S1700000x10_1_0_0_1 : ScatterDims S100000x10 S1700000x1 S1700000x10 where
  updateWindowDims := [1]
  insertedWindowDims := [0]
  scatterDimsToOperandDims := [0]
  indexVectorDim := 1
  wf := scatter_S100000x10_S1700000x1_S1700000x10_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x10.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61_0) S2000x10.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61_1) S2000x10.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x10 : Shape := ⟨2, ![100000, 10]⟩
abbrev S1700000x10 : Shape := ⟨2, ![1700000, 10]⟩
abbrev S1x10 : Shape := ⟨2, ![1, 10]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x10, .f32⟩
  | .hbm, ⟨5, _⟩ => ⟨S10, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x10, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x10, .f32⟩
  | .hbm, ⟨79, _⟩ => ⟨S1700000x1, .f32⟩
  | .hbm, ⟨80, _⟩ => ⟨S1700000x10, .f32⟩
  | .hbm, ⟨81, _⟩ => ⟨S1700000x10, .f32⟩
  | .hbm, ⟨82, _⟩ => ⟨S_, .f32⟩
  | .hbm, ⟨83, _⟩ => ⟨S100000x10, .f32⟩
  | .hbm, ⟨84, _⟩ => ⟨S1700000x1, .i32⟩
  | .hbm, ⟨85, _⟩ => ⟨S100000x10, .f32⟩
  | .hbm, ⟨86, _⟩ => ⟨S1x10, .f32⟩
  | .hbm, ⟨87, _⟩ => ⟨S100000x10, .f32⟩
  | .hbm, ⟨88, _⟩ => ⟨S100000x10, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x10, .f32⟩
  | .hbm, ⟨96, _⟩ => ⟨S100000x10, .f32⟩
  | .hbm, ⟨97, _⟩ => ⟨S100000x10, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x10, .f32⟩
  | .hbm, ⟨103, _⟩ => ⟨S100000x10, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x10_0_1 : S1700000x1.BroadcastsInDim S1700000x10 (![0, 1] : Fin 2 → Fin S1700000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x10_S100000x10_1_0_0_1_n_n_wf : DotDims.WF S100000x128 S128x10 S100000x10 [1] [0] [0] [1] [] []
  gather_S100000x10_S1700000x1_S1700000x10_1_0_n_n_0_1_110_wf : GatherDims.WF S100000x10 S1700000x1 S1700000x10 [1] [0] [] [0] [] 1 ![1, 10]
  scatter_S100000x10_S1700000x1_S1700000x10_1_0_0_1_wf : ScatterDims.WF S100000x10 S1700000x1 S1700000x10 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf
def gather_S100000x10_S1700000x1_S1700000x10_1_0_n_n_0_1_110 : GatherDims S100000x10 S1700000x1 S1700000x10 where
  offsetDims := [1]
  collapsedSliceDims := [0]
  operandBatchingDims := []
  startIndicesBatchingDims := []
  startIndexMap := [0]
  indexVectorDim := 1
  sliceSizes := ![1, 10]
  wf := gather_S100000x10_S1700000x1_S1700000x10_1_0_n_n_0_1_110_wf
def scatter_S100000x10_S1700000x1_S1700000x10_1_0_0_1 : ScatterDims S100000x10 S1700000x1 S1700000x10 where
  updateWindowDims := [1]
  insertedWindowDims := [0]
  scatterDimsToOperandDims := [0]
  indexVectorDim := 1
  wf := scatter_S100000x10_S1700000x1_S1700000x10_1_0_0_1_wf

class Facts : Prop extends Facts₀ where

variable [Facts]
-- ==== Proof.KernelRun.lean ====
/-
  The run of the kernel program with its two result arrays named.
  The program is four pallas_calls among stretches of host operations; its buffer contents at each boundary are a fold
  from the launch memory (the contents after the last call are the fold's last stage). Every weakly fair execution
  terminates without a fault, and in the final state each result array holds the last stage's contents at that array,
  while the six argument arrays hold what they held at launch.
-/
import proofs.«129382_j17308718202892_1_alg».proof.Proof.Gen.KernelIdeal.Frame

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the two result arrays at the contents after the last call and the arguments
    as launched. -/
theorem run : θ_run defs (onTc (τ := τ) (main (F := F))) ⟨m, fun _ => 0, ρ⟩ (fun r => ∀ c : Dev nD,
      r.2.mem ((c.tc : Thread nD τ).loc main_v61_0) = W9 m ρ c (Proc.devRef .tc main_v61_0)
      ∧ r.2.mem ((c.tc : Thread nD τ).loc main_v61_1) = W9 m ρ c (Proc.devRef .tc main_v61_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61_0 (by decide)),
       h c _ (mem_uc main_v61_1 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Final

end
-- ==== Proof.ReferenceRun.lean ====
/-
  The reference program's run, stated through its stage values.
  The reference is a straight line of host operations, so every weakly fair execution ends with each buffer at the fold
  of the operations over the launch contents. The logits are read off the fold directly. The log-softmax of the logits
  is the program's last fifteen operations, which read nothing but the logits: so the fold is cut before them, the
  fifteen operations are folded over any contents as one function of the logits there, and that function of the logits
  stage is the log-softmax stage.
-/
import proofs.«129382_j17308718202892_1_alg».proof.Proof.RefReadPatched
import Idealize.ShloMosaic.Lib.StableHlo.Run

set_option maxRecDepth 16384

noncomputable section

namespace Cert.ReferenceIdeal.Hand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Folding a line of operations that is two lines joined is folding the second over the fold of the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The program's last fifteen operations: the row-wise log-softmax of the logits. -/
abbrev softmaxOps : List (HloOp τ sig (Elt F)) := (ops (F := F)).drop 83

theorem ops_split : (ops (F := F)) = (ops (F := F)).take 83 ++ softmaxOps (F := F) :=
  (List.take_append_drop 83 ops).symm

/-- The row-wise log-softmax as the host computes it, as one function of the logits. -/
def hostLogSoftmax (z : (⟨S100000x10, .f32⟩ : BufTy).Contents (Elt F)) : (⟨S100000x10, .f32⟩ : BufTy).Contents (Elt F) :=
  subf
    (subf z (broadcastInDim S100000x10 ![0, 1] bcast_S100000x1_S100000x10_0_1 (broadcastInDim S100000x1 ![0] bcast_S100000_S100000x1_0
      (maximumf (broadcastInDim S100000 ![] bcast_S_S100000 (constant S_ .f32 0xFF800000#32))
        (Host.reduce FloatOps.maximumf z (constant S_ .f32 0xFF800000#32) reducesTo_S100000x10_S100000_d1 h_S_)))))
    (broadcastInDim S100000x10 ![0, 1] bcast_S100000x1_S100000x10_0_1 (Host.log (broadcastInDim S100000x1 ![0] bcast_S100000_S100000x1_0
      (Host.reduceAdd (Host.exp (subf z (broadcastInDim S100000x10 ![0, 1] bcast_S100000x1_S100000x10_0_1 (broadcastInDim S100000x1 ![0] bcast_S100000_S100000x1_0
        (maximumf (broadcastInDim S100000 ![] bcast_S_S100000 (constant S_ .f32 0xFF800000#32))
          (Host.reduce FloatOps.maximumf z (constant S_ .f32 0xFF800000#32) reducesTo_S100000x10_S100000_d1 h_S_))))))
        (constant S_ .f32 0x00000000#32) reducesTo_S100000x10_S100000_d1 h_S_))))

/-- The log-softmax stage is that function of the logits stage. -/
theorem stage_logSoftmax (x0 : (⟨S100000x256, .f32⟩ : BufTy).Contents (Elt F)) (x1 : (⟨S2x1600000, .i32⟩ : BufTy).Contents (Elt F))
    (x2 : (⟨S256x128, .f32⟩ : BufTy).Contents (Elt F)) (x3 : (⟨S128, .f32⟩ : BufTy).Contents (Elt F))
    (x4 : (⟨S128x10, .f32⟩ : BufTy).Contents (Elt F)) (x5 : (⟨S10, .f32⟩ : BufTy).Contents (Elt F)) :
    val_main_v65 (F := F) x0 x1 x2 x3 x4 x5 = hostLogSoftmax (val_main_v64 (F := F) x0 x1 x2 x3 x4 x5) := rfl

/-- Contents carried into a buffer of their own type and back are unchanged. -/
theorem ofBuf_toBuf {T : BufTy} (x : TRef sig T) (v : T.Contents (Elt F)) : x.ofBuf (x.toBuf v) = v := by
  obtain ⟨r, h, h2, h3⟩ := x
  subst h
  rfl

/-- The logits buffer's contents are contents of the logits' type as they stand; so are the log-softmax buffer's. -/
theorem ofBuf_logits (u : main_v64.ty.Contents (Elt F)) : (TRef.of (T := ⟨S100000x10, .f32⟩) main_v64).ofBuf u = u := rfl
theorem toBuf_result (v : (⟨S100000x10, .f32⟩ : BufTy).Contents (Elt F)) : (TRef.of (T := ⟨S100000x10, .f32⟩) main_v65).toBuf v = v := rfl

/-- The fifteen operations folded over any contents leave the log-softmax buffer at that function of the logits there. -/
theorem softmaxOps_result (W : Valuation τ sig (Elt F)) :
    after (softmaxOps (F := F)) W (Proc.devRef .tc main_v65) = hostLogSoftmax (W (Proc.devRef .tc main_v64)) := by
  simp only [softmaxOps, ops, List.drop]
  after_results_simp
  simp only [ofBuf_toBuf, ofBuf_logits, toBuf_result]
  rfl

/-- They do not write the logits. -/
theorem softmaxOps_keeps (W : Valuation τ sig (Elt F)) :
    after (softmaxOps (F := F)) W (Proc.devRef .tc main_v64) = W (Proc.devRef .tc main_v64) := by
  simp only [softmaxOps, ops, List.drop]
  after_results_simp

variable (m : (ℓ : Loc nD τ sig) → Buf (Elt F) ℓ) (c : Dev nD)

set_option maxRecDepth 8192 in
set_option maxHeartbeats 4000000 in
/-- The fold at the logits buffer is the logits stage of the arguments. -/
theorem fold_logits : after (ops (F := F)) (launchContents m c) (Proc.devRef .tc main_v64)
    = val_main_v64 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (show after (ops (F := F)) (launchContents m c) (Proc.devRef .tc main_v64) = res_main_v64 m c from by
    after_results_simp <;> rfl <;> (unfold res_main_v64; rfl)).trans (val_main_v64_eq m c)

/-- The fold at the log-softmax buffer is the log-softmax stage of the arguments. -/
theorem fold_logSoftmax : after (ops (F := F)) (launchContents m c) (Proc.devRef .tc main_v65)
    = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have hcut : ∀ b, after (ops (F := F)) (launchContents m c) b
      = after (softmaxOps (F := F)) (after ((ops (F := F)).take 83) (launchContents m c)) b := fun b => by
    rw [← after_append, ← ops_split]
  have hkeep := softmaxOps_keeps (F := F) (after ((ops (F := F)).take 83) (launchContents m c))
  rw [hcut, softmaxOps_result, ← hkeep, ← hcut, fold_logits, stage_logSoftmax]

/-- Every weakly fair execution of the reference ends with the two results at their stages of the arguments and the
    arguments as launched. -/
theorem run (ρ : Dev nD → PrngReg) :
    θ_run defs (onTc (τ := τ) (main (F := F))) ⟨m, fun _ => 0, ρ⟩ fun r => ∀ c : Dev nD,
      r.2.mem ((c.tc : Thread nD τ).loc main_v64) = val_main_v64 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v65) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c).1.trans (val_main_v64_eq m c), (h c).2.1.trans (fold_logSoftmax m c), (h c).2.2⟩)
    (Cert.ReferenceIdeal.ValueP.run (F := F) m ρ)

end Cert.ReferenceIdeal.Hand

end
-- ==== Proof.FeatureProduct.lean ====
/-
  The first pallas_call of the kernel program: the node features times the first weight matrix, over row tiles.
  Its output array, after all fifty grid points have written their tiles back, is the matrix product of the two arrays
  the call reads: entry (r, j) is the sum over k of x (r, k) · w (k, j). The body rounds both operands to bf16 before the
  multiplication, which changes nothing over the extended reals, and accumulates into a zero tile. Grid point t handles
  rows 2000·t … 2000·t + 1999 of x against the whole of w, so the fifty tiles cover the output exactly once.
-/
import proofs.«129382_j17308718202892_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.FeatureProduct

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The whole-array function: rows of x against columns of w. -/
def rowsByColumns (x : S100000x256.Idx → Ideal .f32) (w : S256x128.Idx → Ideal .f32) : S100000x128.Idx → Ideal .f32 :=
  fun i => ∑ k : Fin 256, x (ix2 (⟨(i 0).val, idx2_lt0 i⟩ : Fin 100000) k) * w (ix2 k (⟨(i 1).val, idx2_lt1 i⟩ : Fin 128))

abbrev dims := dot_S2000x256_S256x128_S2000x128_1_0_0_1_n_n

/-- The product's operand indices at output index i and contraction index q, coordinate by coordinate. -/
theorem lhs_row (i : S2000x128.Idx) (q : dims.contr.Idx) : (dims.lhsIdx i q 0).val = (i 0).val := by
  unfold DotDims.lhsIdx
  rw [dif_neg (show ¬(0 : Fin S2000x256.rank) ∈ dims.lhsBatch by decide), dif_pos (show (0 : Fin S2000x256.rank) ∈ dims.lhsNonContracting by decide)]
  rfl
theorem lhs_contr (i : S2000x128.Idx) (q : dims.contr.Idx) : (dims.lhsIdx i q 1).val = (q ⟨0, by decide⟩).val :=
  dims.lhsIdx_val_of_single rfl i q
theorem rhs_contr (i : S2000x128.Idx) (q : dims.contr.Idx) : (dims.rhsIdx i q 0).val = (q ⟨0, by decide⟩).val :=
  dims.rhsIdx_val_of_single rfl i q
theorem rhs_col (i : S2000x128.Idx) (q : dims.contr.Idx) : (dims.rhsIdx i q 1).val = (i 1).val := by
  unfold DotDims.rhsIdx
  rw [dif_neg (show ¬(1 : Fin S256x128.rank) ∈ dims.rhsBatch by decide), dif_pos (show (1 : Fin S256x128.rank) ∈ dims.rhsNonContracting by decide)]
  rfl

/-- The tile product read at row p, column q: a sum over the contraction coordinate. -/
theorem product_apply (l : FVec Ideal S2000x256 .bf16) (r : FVec Ideal S256x128 .bf16) (p : Fin 2000) (q : Fin 128) :
    FloatOps.matmul dims none l r (constant S2000x128 .f32 0x00000000#32) (ix2 p q) = ∑ k : Fin 256, l (ix2 p k) * r (ix2 k q) := by
  rw [Ideal.matmul_constant_zero_apply, ← Equiv.sum_comp (contrEquiv1 dims 256 rfl rfl).symm]
  refine Finset.sum_congr rfl fun k _ => ?_
  have hk := contrEquiv1_symm_val dims 256 rfl rfl k
  have el : dims.lhsIdx (ix2 p q) ((contrEquiv1 dims 256 rfl rfl).symm k) = ix2 p k := funext fun a => Fin.ext (by
    match a with
    | ⟨0, _⟩ => exact lhs_row _ _
    | ⟨1, _⟩ => exact (lhs_contr _ _).trans hk)
  have er : dims.rhsIdx (ix2 p q) ((contrEquiv1 dims 256 rfl rfl).symm k) = ix2 k q := funext fun a => Fin.ext (by
    match a with
    | ⟨0, _⟩ => exact (rhs_contr _ _).trans hk
    | ⟨1, _⟩ => exact rhs_col _ _)
  rw [el, er]

/-- The body's stored value at row p, column q of a tile, from the tile of x and the whole of w. -/
theorem tile_apply (x0 : FVec Ideal S2000x256 .f32) (x1 : FVec Ideal S256x128 .f32) (p : Fin 2000) (q : Fin 128) :
    k0_pay1 x0 x1 (ix2 p q) = ∑ k : Fin 256, x0 (ix2 p k) * x1 (ix2 k q) := by
  unfold k0_pay1
  exact product_apply (truncf .bf16 x0 bitsLt_bf16_f32) (truncf .bf16 x1 bitsLt_bf16_f32) p q

/-- Where the windows sit at grid point t: the two row-tiled windows at block row t, everything else at block 0. -/
theorem index_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) = t.val :=
  (by decide +kernel : ∀ t : Fin grid0.N, _)

/-- What grid point t writes back is tile t of the whole-array function. -/
theorem flushed_eq (c : Dev nD) (t : Fin cfg0.N) :
    (dat0 V c).flushed 2 t = ((cfg0.win 2).blk t).view.read (Elt Ideal) (rowsByColumns (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S256x128) zero_offsets]
  obtain ⟨e0, e1, e2, e3, e4, e5⟩ := index_facts t
  funext j
  obtain ⟨p, q, rfl⟩ : ∃ (p : Fin 2000) (q : Fin 128), j = ix2 p q := ⟨j 0, j 1, eq_ix2 j⟩
  refine (tile_apply _ _ p q).trans ?_
  have h0 : ∀ k : Fin 256, ((cfg0.win 0).blk t).view.emb (ix2 p k)
      = ix2 (⟨((((cfg0.win 2).blk t).view.emb (ix2 p q)) 0).val, idx2_lt0 _⟩ : Fin 100000) k := by
    intro k; funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 256 + 1 * k.val = k.val; omega
  have h1 : ∀ k : Fin 256, ((cfg0.win 1).blk t).view.emb (ix2 k q)
      = ix2 k (⟨((((cfg0.win 2).blk t).view.emb (ix2 p q)) 1).val, idx2_lt1 _⟩ : Fin 128) := by
    intro k; funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  have key : ∀ (A : S100000x256.Idx → Ideal .f32) (B : S256x128.Idx → Ideal .f32),
      (∑ k : Fin 256, A (((cfg0.win 0).blk t).view.emb (ix2 p k)) * B (((cfg0.win 1).blk t).view.emb (ix2 k q)))
        = ∑ k : Fin 256, A (ix2 (⟨((((cfg0.win 2).blk t).view.emb (ix2 p q)) 0).val, idx2_lt0 _⟩ : Fin 100000) k)
            * B (ix2 k (⟨((((cfg0.win 2).blk t).view.emb (ix2 p q)) 1).val, idx2_lt1 _⟩ : Fin 128)) := by
    intro A B
    refine Finset.sum_congr rfl fun k _ => ?_
    rw [h0 k, h1 k]
  exact key (V c main_arg0) (V c main_arg2)

/-- Row r of the array lies in the tile of grid point r / 2000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨e0, e1, e2, e3, e4, e5⟩ := index_facts t
  refine ⟨t, flush0_2 t, ?_⟩
  show i ∈ ((View.whole main_v30).slice (win0_2.rect t)).set
  rw [View.set_slice_whole, Rect.mem_set_unit]
  intro a
  match a with
  | ⟨0, _⟩ =>
    show win0_2.index t (0 : Fin 2) * 2000 ≤ (i 0).val ∧ (i 0).val < win0_2.index t (0 : Fin 2) * 2000 + 2000
    rw [e5]; show (i 0).val / 2000 * 2000 ≤ (i 0).val ∧ (i 0).val < (i 0).val / 2000 * 2000 + 2000; omega
  | ⟨1, _⟩ =>
    show win0_2.index t (1 : Fin 2) * 128 ≤ (i 1).val ∧ (i 1).val < win0_2.index t (1 : Fin 2) * 128 + 128
    rw [e2]; omega

/-- The output array after the call: the matrix product of the two arrays the call reads. -/
theorem final (c : Dev nD) : (dat0 V c).arrAt 2 cfg0.N = rowsByColumns (V c main_arg0) (V c main_arg2) :=
  (dat0 V c).arrAt_eq_of_cover 2 (rowsByColumns (V c main_arg0) (V c main_arg2)) (fun t _ => flushed_eq V c t) (cover)

end Cert.KernelIdeal.FeatureProduct

end
-- ==== Proof.BiasRelu.lean ====
/-
  The second pallas_call of the kernel program: bias add and ReLU over row tiles.
  Its output array, after all fifty grid points have written their tiles back, is one function of the two arrays the
  call reads: entry (r, j) is max (a (r, j) + b (0, j), 0), where a is the aggregated feature array [100000, 128] and b
  the bias row [1, 128]. Grid point t handles rows 2000·t … 2000·t + 1999 (all 128 columns), so the fifty tiles cover
  the array exactly once.
-/
import proofs.«129382_j17308718202892_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.BiasRelu

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The whole-array function: bias added along the rows, then the maximum with the zero word. -/
def biasRelu (a : S100000x128.Idx → Ideal .f32) (b : S1x128.Idx → Ideal .f32) : S100000x128.Idx → Ideal .f32 :=
  fun i => FloatOps.maximumf (F := Ideal) (FloatOps.addf (a i) (b (ix2 (0 : Fin 1) (⟨(i 1).val, idx2_lt1 i⟩ : Fin 128)))) (FloatOps.ofBits .f32 0x00000000#32)

/-- The body's stored value at row p, column q of a tile, from the tile of a and the bias row. -/
theorem tile_apply (x0 : FVec Ideal S2000x128 .f32) (x1 : FVec Ideal S1x128 .f32) (p : Fin 2000) (q : Fin 128) :
    k1_pay1 x0 x1 (ix2 p q)
      = FloatOps.maximumf (F := Ideal) (FloatOps.addf (x0 (ix2 p q)) (x1 (ix2 (0 : Fin 1) q))) (FloatOps.ofBits .f32 0x00000000#32) := by
  unfold k1_pay1
  show FloatOps.maximumf (F := Ideal) (FloatOps.addf (shapeCast S2000x128 x0 shapeCasts_S2000x128_S2000x128 (ix2 p q))
      (broadcastTo S2000x128 (shapeCast S1x128 x1 shapeCasts_S1x128_S1x128) broadcasts_S1x128_S2000x128 (ix2 p q))) _ = _
  rw [shapeCast_self, shapeCast_self, broadcastTo_1b_ab_apply]
  rfl

/-- Where the windows sit at grid point t: the two row-tiled windows at block row t, everything else at block 0. -/
theorem index_facts : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) = t.val :=
  (by decide +kernel : ∀ t : Fin grid1.N, _)

/-- What grid point t writes back is tile t of the whole-array function. -/
theorem flushed_eq (c : Dev nD) (t : Fin cfg1.N) :
    (dat1 V c).flushed 2 t = ((cfg1.win 2).blk t).view.read (Elt Ideal) (biasRelu (V c main_v43) (V c main_v44)) := by
  show (cfg1.win 2).cut (grid1.coords t) ((dat1 V c).after 2 t) = _
  rw [after1_2]
  unfold out1_2
  rw [View.canon_unit_zero zero_offsets]
  simp only [View.ld_unit_zero (S := S2000x128) zero_offsets, View.ld_unit_zero (S := S1x128) zero_offsets]
  obtain ⟨e0, e1, e2, e3, e4, e5⟩ := index_facts t
  funext j
  obtain ⟨p, q, rfl⟩ : ∃ (p : Fin 2000) (q : Fin 128), j = ix2 p q := ⟨j 0, j 1, eq_ix2 j⟩
  refine (tile_apply _ _ p q).trans ?_
  show FloatOps.maximumf (F := Ideal) (φ := .f32) (FloatOps.addf (V c main_v43 (((cfg1.win 0).blk t).view.emb (ix2 p q)) : Ideal .f32) (V c main_v44 (((cfg1.win 1).blk t).view.emb (ix2 (0 : Fin 1) q)) : Ideal .f32)) _
    = FloatOps.maximumf (F := Ideal) (φ := .f32) (FloatOps.addf (V c main_v43 (((cfg1.win 2).blk t).view.emb (ix2 p q)) : Ideal .f32)
        (V c main_v44 (ix2 (0 : Fin 1) (⟨((((cfg1.win 2).blk t).view.emb (ix2 p q)) 1).val, idx2_lt1 _⟩ : Fin 128)) : Ideal .f32)) _
  have h0 : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q)
      = ix2 (0 : Fin 1) (⟨((((cfg1.win 2).blk t).view.emb (ix2 p q)) 1).val, idx2_lt1 _⟩ : Fin 128) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [h0, h1]

/-- Row r of the array lies in the tile of grid point r / 2000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  obtain ⟨e0, e1, e2, e3, e4, e5⟩ := index_facts t
  refine ⟨t, flush1_2 t, ?_⟩
  show i ∈ ((View.whole main_v45).slice (win1_2.rect t)).set
  rw [View.set_slice_whole, Rect.mem_set_unit]
  intro a
  match a with
  | ⟨0, _⟩ =>
    show win1_2.index t (0 : Fin 2) * 2000 ≤ (i 0).val ∧ (i 0).val < win1_2.index t (0 : Fin 2) * 2000 + 2000
    rw [e5]; show (i 0).val / 2000 * 2000 ≤ (i 0).val ∧ (i 0).val < (i 0).val / 2000 * 2000 + 2000; omega
  | ⟨1, _⟩ =>
    show win1_2.index t (1 : Fin 2) * 128 ≤ (i 1).val ∧ (i 1).val < win1_2.index t (1 : Fin 2) * 128 + 128
    rw [e2]; omega

/-- The output array after the call: the whole-array function of the two arrays the call reads. -/
theorem final (c : Dev nD) : (dat1 V c).arrAt 2 cfg1.N = biasRelu (V c main_v43) (V c main_v44) :=
  (dat1 V c).arrAt_eq_of_cover 2 (biasRelu (V c main_v43) (V c main_v44)) (fun t _ => flushed_eq V c t) (cover)

end Cert.KernelIdeal.BiasRelu

end
-- ==== Proof.HiddenProduct.lean ====
/-
  The third pallas_call of the kernel program: the hidden features times the second weight matrix, over row tiles.
  Its output array, after all fifty grid points have written their tiles back, is the matrix product of the two arrays
  the call reads: entry (r, j) is the sum over k of x (r, k) · w (k, j). The body rounds both operands to bf16 before the
  multiplication, which changes nothing over the extended reals, and accumulates into a zero tile. Grid point t handles
  rows 2000·t … 2000·t + 1999 of x against the whole of w, so the fifty tiles cover the output exactly once.
-/
import proofs.«129382_j17308718202892_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.HiddenProduct

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The whole-array function: rows of x against columns of w. -/
def rowsByColumns (x : S100000x128.Idx → Ideal .f32) (w : S128x10.Idx → Ideal .f32) : S100000x10.Idx → Ideal .f32 :=
  fun i => ∑ k : Fin 128, x (ix2 (⟨(i 0).val, idx2_lt0 i⟩ : Fin 100000) k) * w (ix2 k (⟨(i 1).val, idx2_lt1 i⟩ : Fin 10))

abbrev dims := dot_S2000x128_S128x10_S2000x10_1_0_0_1_n_n

/-- The product's operand indices at output index i and contraction index q, coordinate by coordinate. -/
theorem lhs_row (i : S2000x10.Idx) (q : dims.contr.Idx) : (dims.lhsIdx i q 0).val = (i 0).val := by
  unfold DotDims.lhsIdx
  rw [dif_neg (show ¬(0 : Fin S2000x128.rank) ∈ dims.lhsBatch by decide), dif_pos (show (0 : Fin S2000x128.rank) ∈ dims.lhsNonContracting by decide)]
  rfl
theorem lhs_contr (i : S2000x10.Idx) (q : dims.contr.Idx) : (dims.lhsIdx i q 1).val = (q ⟨0, by decide⟩).val :=
  dims.lhsIdx_val_of_single rfl i q
theorem rhs_contr (i : S2000x10.Idx) (q : dims.contr.Idx) : (dims.rhsIdx i q 0).val = (q ⟨0, by decide⟩).val :=
  dims.rhsIdx_val_of_single rfl i q
theorem rhs_col (i : S2000x10.Idx) (q : dims.contr.Idx) : (dims.rhsIdx i q 1).val = (i 1).val := by
  unfold DotDims.rhsIdx
  rw [dif_neg (show ¬(1 : Fin S128x10.rank) ∈ dims.rhsBatch by decide), dif_pos (show (1 : Fin S128x10.rank) ∈ dims.rhsNonContracting by decide)]
  rfl

/-- The tile product read at row p, column q: a sum over the contraction coordinate. -/
theorem product_apply (l : FVec Ideal S2000x128 .bf16) (r : FVec Ideal S128x10 .bf16) (p : Fin 2000) (q : Fin 10) :
    FloatOps.matmul dims none l r (constant S2000x10 .f32 0x00000000#32) (ix2 p q) = ∑ k : Fin 128, l (ix2 p k) * r (ix2 k q) := by
  rw [Ideal.matmul_constant_zero_apply, ← Equiv.sum_comp (contrEquiv1 dims 128 rfl rfl).symm]
  refine Finset.sum_congr rfl fun k _ => ?_
  have hk := contrEquiv1_symm_val dims 128 rfl rfl k
  have el : dims.lhsIdx (ix2 p q) ((contrEquiv1 dims 128 rfl rfl).symm k) = ix2 p k := funext fun a => Fin.ext (by
    match a with
    | ⟨0, _⟩ => exact lhs_row _ _
    | ⟨1, _⟩ => exact (lhs_contr _ _).trans hk)
  have er : dims.rhsIdx (ix2 p q) ((contrEquiv1 dims 128 rfl rfl).symm k) = ix2 k q := funext fun a => Fin.ext (by
    match a with
    | ⟨0, _⟩ => exact (rhs_contr _ _).trans hk
    | ⟨1, _⟩ => exact rhs_col _ _)
  rw [el, er]

/-- The body's stored value at row p, column q of a tile, from the tile of x and the whole of w. -/
theorem tile_apply (x0 : FVec Ideal S2000x128 .f32) (x1 : FVec Ideal S128x10 .f32) (p : Fin 2000) (q : Fin 10) :
    k2_pay1 x0 x1 (ix2 p q) = ∑ k : Fin 128, x0 (ix2 p k) * x1 (ix2 k q) := by
  unfold k2_pay1
  refine (product_apply (truncf .bf16 (shapeCast S2000x128 x0 shapeCasts_S2000x128_S2000x128) bitsLt_bf16_f32) (truncf .bf16 x1 bitsLt_bf16_f32) p q).trans ?_
  refine Finset.sum_congr rfl fun k _ => ?_
  show shapeCast S2000x128 x0 shapeCasts_S2000x128_S2000x128 (ix2 p k) * x1 (ix2 k q) = _
  rw [shapeCast_self]

/-- Where the windows sit at grid point t: the two row-tiled windows at block row t, everything else at block 0. -/
theorem index_facts : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) = t.val :=
  (by decide +kernel : ∀ t : Fin grid2.N, _)

/-- What grid point t writes back is tile t of the whole-array function. -/
theorem flushed_eq (c : Dev nD) (t : Fin cfg2.N) :
    (dat2 V c).flushed 2 t = ((cfg2.win 2).blk t).view.read (Elt Ideal) (rowsByColumns (V c main_v45) (V c main_arg4)) := by
  show (cfg2.win 2).cut (grid2.coords t) ((dat2 V c).after 2 t) = _
  rw [after2_2]
  unfold out2_2
  rw [View.canon_unit_zero zero_offsets]
  simp only [View.ld_unit_zero (S := S2000x128) zero_offsets, View.ld_unit_zero (S := S128x10) zero_offsets]
  obtain ⟨e0, e1, e2, e3, e4, e5⟩ := index_facts t
  funext j
  obtain ⟨p, q, rfl⟩ : ∃ (p : Fin 2000) (q : Fin 10), j = ix2 p q := ⟨j 0, j 1, eq_ix2 j⟩
  refine (tile_apply _ _ p q).trans ?_
  have h0 : ∀ k : Fin 128, ((cfg2.win 0).blk t).view.emb (ix2 p k)
      = ix2 (⟨((((cfg2.win 2).blk t).view.emb (ix2 p q)) 0).val, idx2_lt0 _⟩ : Fin 100000) k := by
    intro k; funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  have h1 : ∀ k : Fin 128, ((cfg2.win 1).blk t).view.emb (ix2 k q)
      = ix2 k (⟨((((cfg2.win 2).blk t).view.emb (ix2 p q)) 1).val, idx2_lt1 _⟩ : Fin 10) := by
    intro k; funext a; apply Fin.ext
    match a with
    | ⟨0, _⟩ => show win2_1.index t (0 : Fin 2) * 128 + 1 * k.val = k.val; omega
    | ⟨1, _⟩ => show win2_1.index t (1 : Fin 2) * 10 + 1 * q.val = win2_2.index t (1 : Fin 2) * 10 + 1 * q.val; omega
  have key : ∀ (A : S100000x128.Idx → Ideal .f32) (B : S128x10.Idx → Ideal .f32),
      (∑ k : Fin 128, A (((cfg2.win 0).blk t).view.emb (ix2 p k)) * B (((cfg2.win 1).blk t).view.emb (ix2 k q)))
        = ∑ k : Fin 128, A (ix2 (⟨((((cfg2.win 2).blk t).view.emb (ix2 p q)) 0).val, idx2_lt0 _⟩ : Fin 100000) k)
            * B (ix2 k (⟨((((cfg2.win 2).blk t).view.emb (ix2 p q)) 1).val, idx2_lt1 _⟩ : Fin 10)) := by
    intro A B
    refine Finset.sum_congr rfl fun k _ => ?_
    rw [h0 k, h1 k]
  exact key (V c main_v45) (V c main_arg4)

/-- Row r of the array lies in the tile of grid point r / 2000. -/
theorem cover (i : S100000x10.Idx) :
    ∃ t : Fin cfg2.N, (cfg2.win 2).flush t = true ∧ i ∈ ((cfg2.win 2).blk t).view.set := by
  have hi0 : (i 0).val < 100000 := (i 0).isLt
  have hi1 : (i 1).val < 10 := (i 1).isLt
  have hN : cfg2.N = 50 := N_2
  let t : Fin cfg2.N := ⟨(i 0).val / 2000, by rw [hN]; omega⟩
  obtain ⟨e0, e1, e2, e3, e4, e5⟩ := index_facts t
  refine ⟨t, flush2_2 t, ?_⟩
  show i ∈ ((View.whole main_v46).slice (win2_2.rect t)).set
  rw [View.set_slice_whole, Rect.mem_set_unit]
  intro a
  match a with
  | ⟨0, _⟩ =>
    show win2_2.index t (0 : Fin 2) * 2000 ≤ (i 0).val ∧ (i 0).val < win2_2.index t (0 : Fin 2) * 2000 + 2000
    rw [e5]; show (i 0).val / 2000 * 2000 ≤ (i 0).val ∧ (i 0).val < (i 0).val / 2000 * 2000 + 2000; omega
  | ⟨1, _⟩ =>
    show win2_2.index t (1 : Fin 2) * 10 ≤ (i 1).val ∧ (i 1).val < win2_2.index t (1 : Fin 2) * 10 + 10
    rw [e2]; omega

/-- The output array after the call: the matrix product of the two arrays the call reads. -/
theorem final (c : Dev nD) : (dat2 V c).arrAt 2 cfg2.N = rowsByColumns (V c main_v45) (V c main_arg4) :=
  (dat2 V c).arrAt_eq_of_cover 2 (rowsByColumns (V c main_v45) (V c main_arg4)) (fun t _ => flushed_eq V c t) (cover)

end Cert.KernelIdeal.HiddenProduct

end
-- ==== Proof.LibColumnFlatten.lean ====
/-
  Layout operations read at an index given by coordinates, for a column and for two trailing axes written as one.
  A column: the shape cast that makes a vector [a] a column [a, 1], the cast that gives a column a second unit axis,
  [a, 1] → [a, 1, 1], and the broadcast of such a column over two axes, [a, 1, 1] → [a, b, c]; each reads the operand at
  the row coordinate alone. Two trailing axes as one: the casts [a, b, c] → [a, n] and back, with n = b · c, under which
  the pair (p, j) and the single coordinate p · c + j name the same element.
-/
import Idealize.ShloMosaic.Lib.Pipeline.Value
import Idealize.ShloMosaic.Lib.ValueIdx

namespace Cert.Lib.ColumnFlatten

open Idealize.ShloMosaic Idealize.ShloMosaic.ValueIdx

variable {α : Type}

/-- A vector [a] cast to a column [a, 1] reads, at (i, o), the operand at i: both have row-major position i. -/
theorem shapeCast_a_a1_apply {a : ℕ} (x : (⟨1, ![a]⟩ : Shape).Idx → α)
    (h : (⟨1, ![a]⟩ : Shape).ShapeCasts ⟨2, ![a, 1]⟩) (i : Fin a) (o : Fin 1) :
    shapeCast ⟨2, ![a, 1]⟩ x h (ix2 i o) = x (ix1 i) :=
  shapeCast_apply x h _ _ (by
    have ho : o.val = 0 := by omega
    rw [Shape.rowMajor_val_two, Shape.rowMajor_val_one]
    show i.val = i.val * 1 + o.val
    rw [ho, Nat.mul_one, Nat.add_zero])

/-- A column [a, 1] cast to [a, 1, 1] reads, at (i, o, o'), the operand at (i, 0). -/
theorem shapeCast_a1_a11_apply {a : ℕ} (x : (⟨2, ![a, 1]⟩ : Shape).Idx → α)
    (h : (⟨2, ![a, 1]⟩ : Shape).ShapeCasts ⟨3, ![a, 1, 1]⟩) (i : Fin a) (o o' : Fin 1) :
    shapeCast ⟨3, ![a, 1, 1]⟩ x h (ix3 i o o') = x (ix2 i (0 : Fin 1)) :=
  shapeCast_apply x h _ _ (by
    have ho : o.val = 0 := by omega
    have ho' : o'.val = 0 := by omega
    rw [Shape.rowMajor_val_three, Shape.rowMajor_val_two]
    show i.val * 1 + 0 = (i.val * 1 + o.val) * 1 + o'.val
    omega)

/-- A column [a, 1, 1] broadcast to [a, b, c] reads, at (i, p, j), the operand at (i, 0, 0). -/
theorem broadcastTo_a11_abc_apply {a b c : ℕ} (x : (⟨3, ![a, 1, 1]⟩ : Shape).Idx → α)
    (h : (⟨3, ![a, 1, 1]⟩ : Shape).Broadcasts ⟨3, ![a, b, c]⟩) (i : Fin a) (p : Fin b) (j : Fin c) :
    broadcastTo ⟨3, ![a, b, c]⟩ x h (ix3 i p j) = x (ix3 i (0 : Fin 1) (0 : Fin 1)) := by
  refine broadcastTo_apply x h (ix3 i p j) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- An [a, b, c] array cast to [a, n], n = b · c, reads at (i, p · c + j) the operand at (i, p, j). -/
theorem shapeCast_abc_an_apply {a b c n : ℕ} (x : (⟨3, ![a, b, c]⟩ : Shape).Idx → α)
    (h : (⟨3, ![a, b, c]⟩ : Shape).ShapeCasts ⟨2, ![a, n]⟩) (i : Fin a) (p : Fin b) (j : Fin c) (q : Fin n)
    (hq : q.val = p.val * c + j.val) :
    shapeCast ⟨2, ![a, n]⟩ x h (ix2 i q) = x (ix3 i p j) :=
  shapeCast_apply x h _ _ (by
    have hn : n = b * c := by
      have e := h
      simp [Shape.ShapeCasts, Shape.numel, Fin.prod_univ_succ] at e
      have ha : a ≠ 0 := fun h0 => by have := i.isLt; omega
      rcases e with e | e
      · omega
      · exact absurd e ha
    rw [Shape.rowMajor_val_three, Shape.rowMajor_val_two]
    show (i.val * b + p.val) * c + j.val = i.val * n + q.val
    rw [hq, hn, Nat.add_mul, Nat.mul_assoc, Nat.add_assoc])

/-- An [a, n] array cast to [a, b, c], n = b · c, reads at (i, p, j) the operand at (i, p · c + j). -/
theorem shapeCast_an_abc_apply {a b c n : ℕ} (x : (⟨2, ![a, n]⟩ : Shape).Idx → α)
    (h : (⟨2, ![a, n]⟩ : Shape).ShapeCasts ⟨3, ![a, b, c]⟩) (i : Fin a) (p : Fin b) (j : Fin c) (q : Fin n)
    (hq : q.val = p.val * c + j.val) :
    shapeCast ⟨3, ![a, b, c]⟩ x h (ix3 i p j) = x (ix2 i q) :=
  shapeCast_apply x h _ _ (by
    have hn : n = b * c := by
      have e := h
      simp [Shape.ShapeCasts, Shape.numel, Fin.prod_univ_succ] at e
      have ha : a ≠ 0 := fun h0 => by have := i.isLt; omega
      rcases e with e | e
      · omega
      · exact absurd e ha
    rw [Shape.rowMajor_val_three, Shape.rowMajor_val_two]
    show i.val * n + q.val = (i.val * b + p.val) * c + j.val
    rw [hq, hn, Nat.add_mul, Nat.mul_assoc, Nat.add_assoc])

end Cert.Lib.ColumnFlatten
-- ==== Proof.LibColumnBroadcast.lean ====
/-
  A column broadcast along the rows: an [a, 1] array broadcast to [a, b] reads, at (i, j), the operand's entry (i, 0).
-/
import Idealize.ShloMosaic.Lib.Pipeline.Value
import Idealize.ShloMosaic.Lib.ValueIdx

namespace Cert.Lib.ColumnBroadcast

open Idealize.ShloMosaic Idealize.ShloMosaic.ValueIdx

variable {α : Type}

/-- An [a, 1] column broadcast to [a, b] reads, at (i, j), the operand at (i, 0): the row coordinate is kept (also when
    a = 1, where the only row is row 0) and the unit axis is read at its one position. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

end Cert.Lib.ColumnBroadcast
-- ==== Proof.BiasLogSoftmax.lean ====
/-
  The fourth pallas_call of the kernel program: bias add and a row-wise log-softmax over row tiles, with two outputs.
  With z (r, j) = a (r, j) + b (0, j) (a the aggregated logits [100000, 10], b the bias row [1, 10]):
    the first output is z;
    the second is, at (r, j), (z (r, j) - M r) - log (sum over k of exp (z (r, k) - M r)), where M r is the maximum of
    -infinity and of the ten entries of row r.
  Both the maximum and the sum run along a row only, so a tile of 2000 whole rows computes exactly its rows of the
  whole-array function. Grid point t handles rows 2000·t … 2000·t + 1999; the fifty tiles cover each output once.
-/
import proofs.«129382_j17308718202892_1_alg».proof.Proof.Gen.KernelIdeal.Frame
import proofs.«129382_j17308718202892_1_alg».proof.Proof.LibColumnFlatten
import proofs.«129382_j17308718202892_1_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasLogSoftmax

open Cert.KernelIdeal Cert.KernelIdeal.Gen
open Idealize.ShloMosaic Idealize.ShloMosaic.TcCoe Idealize.SL.Sem Idealize.ShloMosaic.ValueIdx
open Idealize.ShloMosaic.Pipeline (Dat)
open Cert.Lib.ColumnFlatten Cert.Lib.ColumnBroadcast

variable (V : (c : Dev nD) → (b : Ref sig .tc) → Buf (Elt Ideal) ((c : Thread nD τ).loc b))

theorem zero_offsets : (![0, 0] : Fin 2 → Nat) = fun _ => 0 := funext fun a => by fin_cases a <;> rfl

/-! ## The whole-array functions -/

/-- The bias row added along the rows. -/
def logits (a : S100000x10.Idx → Ideal .f32) (b : S1x10.Idx → Ideal .f32) : S100000x10.Idx → Ideal .f32 :=
  fun i => a i + b (ix2 (0 : Fin 1) (⟨(i 1).val, idx2_lt1 i⟩ : Fin 10))

/-- The maximum of -infinity and the ten entries of a row. -/
def rowMax {n : Nat} (z : (⟨2, ![n, 10]⟩ : Shape).Idx → Ideal .f32) (r : Fin n) : Ideal .f32 :=
  max (Ideal.ofBits .f32 0xFF800000#32)
    ((Finset.univ : Finset (Fin 10)).fold max (Ideal.ofBits .f32 0xFF800000#32) (fun k => z (ix2 r k)))

/-- The row-wise log-softmax: the entry less its row's maximum, less the logarithm of the row's sum of exponentials. -/
def logSoftmax {n : Nat} (z : (⟨2, ![n, 10]⟩ : Shape).Idx → Ideal .f32) : (⟨2, ![n, 10]⟩ : Shape).Idx → Ideal .f32 :=
  fun i => (z (ix2 (⟨(i 0).val, idx2_lt0 i⟩ : Fin n) (⟨(i 1).val, idx2_lt1 i⟩ : Fin 10)) - rowMax z ⟨(i 0).val, idx2_lt0 i⟩)
    - Ideal.log (∑ k : Fin 10, Ideal.exp (z (ix2 (⟨(i 0).val, idx2_lt0 i⟩ : Fin n) k) - rowMax z ⟨(i 0).val, idx2_lt0 i⟩))

/-! ## A tile -/

/-- The first stored value at row p, column q of a tile. -/
theorem logits_tile (x0 : FVec Ideal S2000x10 .f32) (x1 : FVec Ideal S1x10 .f32) (p : Fin 2000) (q : Fin 10) :
    k3_pay1 x0 x1 (ix2 p q) = x0 (ix2 p q) + x1 (ix2 (0 : Fin 1) q) := by
  unfold k3_pay1
  show (shapeCast S2000x10 x0 shapeCasts_S2000x10_S2000x10 (ix2 p q) : Ideal .f32)
      + (broadcastTo S2000x10 (shapeCast S1x10 x1 shapeCasts_S1x10_S1x10) broadcasts_S1x10_S2000x10 (ix2 p q) : Ideal .f32) = _
  rw [shapeCast_self, shapeCast_self, broadcastTo_1b_ab_apply]

/-- The second stored value as a function of the first: the row-wise log-softmax of the tile, operation by operation. -/
def tileBody (z : FVec Ideal S2000x10 .f32) : FVec Ideal S2000x10 .f32 :=
  have v7 : FVec Ideal S2000 .f32 := multiReduction .maximumf [1] S2000 z 0xFF800000#32 reduces_S2000x10_S2000 (.inl rfl) rfl
  have cst_5 : Ideal .f32 := Scalar.ofBits .f32 0xFF800000#32
  have v8 : FVec Ideal S2000 .f32 := broadcast S2000 cst_5
  have v9 : FVec Ideal S2000 .f32 := maximumf v8 v7
  have v10 : FVec Ideal S2000x1 .f32 := shapeCast S2000x1 v9 shapeCasts_S2000_S2000x1
  have v11 : FVec Ideal S2000x10 .f32 := broadcastTo S2000x10 v10 broadcasts_S2000x1_S2000x10
  have v12 : FVec Ideal S2000x10 .f32 := subf z v11
  have v13 : FVec Ideal S2000x10 .f32 := exp v12
  have v14 : FVec Ideal S2000 .f32 := multiReduction .add [1] S2000 v13 0x00000000#32 reduces_S2000x10_S2000 (.inl rfl) rfl
  have v15 : FVec Ideal S2000x1 .f32 := shapeCast S2000x1 v14 shapeCasts_S2000_S2000x1
  have v16 : FVec Ideal S2000x1 .f32 := log v15
  have v17 : FVec Ideal S2000x10 .f32 := broadcastTo S2000x10 v16 broadcasts_S2000x1_S2000x10
  have v18 : FVec Ideal S2000x10 .f32 := subf v12 v17
  v18

theorem second_eq (x0 : FVec Ideal S2000x10 .f32) (x1 : FVec Ideal S1x10 .f32) : k3_pay2 x0 x1 = tileBody (k3_pay1 x0 x1) := rfl

/-- A row's maximum inside a tile. -/
theorem max_tile (z : FVec Ideal S2000x10 .f32) (p : Fin 2000) :
    multiReduction .maximumf [1] S2000 z 0xFF800000#32 reduces_S2000x10_S2000 (.inl rfl) rfl (ix1 p)
      = (Finset.univ : Finset (Fin 10)).fold max (Ideal.ofBits .f32 0xFF800000#32) (fun k => z (ix2 p k)) := by
  refine (Ideal.multiReduction_maximumf_single z _ reduces_S2000x10_S2000 (.inl rfl) rfl (ix1 p)).trans ?_
  show (Finset.univ : Finset (Fin 10)).fold max (Ideal.ofBits .f32 0xFF800000#32) (fun k => z (reduces_S2000x10_S2000.lift (ix1 p) k)) = _
  refine Finset.fold_congr fun k _ => congrArg z ?_
  funext a; apply Fin.ext
  match a with
  | ⟨0, _⟩ => rfl
  | ⟨1, _⟩ => rfl

/-- A row's sum inside a tile. -/
theorem sum_tile (e : FVec Ideal S2000x10 .f32) (p : Fin 2000) :
    multiReduction .add [1] S2000 e 0x00000000#32 reduces_S2000x10_S2000 (.inl rfl) rfl (ix1 p)
      = ∑ k : Fin 10, e (ix2 p k) := by
  refine (Ideal.multiReduction_add_single e _ reduces_S2000x10_S2000 (.inl rfl) rfl (ix1 p)).trans ?_
  show ∑ k : Fin 10, e (reduces_S2000x10_S2000.lift (ix1 p) k) = _
  refine Finset.sum_congr rfl fun k _ => congrArg e ?_
  funext a; apply Fin.ext
  match a with
  | ⟨0, _⟩ => rfl
  | ⟨1, _⟩ => rfl

/-- The tile's entry less its row's maximum. -/
theorem shifted_tile (z : FVec Ideal S2000x10 .f32) (p : Fin 2000) (k : Fin 10) :
    (subf z (broadcastTo S2000x10 (shapeCast S2000x1 (maximumf (broadcast S2000 (Scalar.ofBits (F := Ideal) .f32 0xFF800000#32))
        (multiReduction .maximumf [1] S2000 z 0xFF800000#32 reduces_S2000x10_S2000 (.inl rfl) rfl)) shapeCasts_S2000_S2000x1)
        broadcasts_S2000x1_S2000x10)) (ix2 p k) = z (ix2 p k) - rowMax z p := by
  show z (ix2 p k) - broadcastTo S2000x10 _ broadcasts_S2000x1_S2000x10 (ix2 p k) = _
  rw [broadcastTo_a1_ab_apply, shapeCast_a_a1_apply]
  show z (ix2 p k) - max (Ideal.ofBits .f32 0xFF800000#32) (multiReduction .maximumf [1] S2000 z 0xFF800000#32 reduces_S2000x10_S2000 (.inl rfl) rfl (ix1 p)) = _
  rw [max_tile]
  rfl

/-- The second stored value at row p, column q of a tile: the log-softmax of the tile's rows. -/
theorem tileBody_apply (z : FVec Ideal S2000x10 .f32) (p : Fin 2000) (q : Fin 10) :
    tileBody z (ix2 p q) = (z (ix2 p q) - rowMax z p) - Ideal.log (∑ k : Fin 10, Ideal.exp (z (ix2 p k) - rowMax z p)) := by
  unfold tileBody
  show (subf z _) (ix2 p q) - broadcastTo S2000x10 _ broadcasts_S2000x1_S2000x10 (ix2 p q) = _
  rw [shifted_tile z p q, broadcastTo_a1_ab_apply]
  show _ - Ideal.log (shapeCast S2000x1 _ shapeCasts_S2000_S2000x1 (ix2 p (0 : Fin 1))) = _
  rw [shapeCast_a_a1_apply, sum_tile]
  refine congrArg (fun s => _ - Ideal.log s) (Finset.sum_congr rfl fun k _ => ?_)
  show Ideal.exp ((subf z _) (ix2 p k)) = _
  rw [shifted_tile z p k]

/-- A tile row that agrees entry by entry with a row of a whole array has that row's log-softmax. -/
theorem softmax_rows {n : Nat} (zt : FVec Ideal S2000x10 .f32) (Z : (⟨2, ![n, 10]⟩ : Shape).Idx → Ideal .f32)
    (p : Fin 2000) (r : Fin n) (q : Fin 10) (h : ∀ k : Fin 10, zt (ix2 p k) = Z (ix2 r k)) :
    tileBody zt (ix2 p q) = logSoftmax Z (ix2 r q) := by
  have hmax : rowMax zt p = rowMax Z r := by
    unfold rowMax
    exact congrArg (max _) (Finset.fold_congr fun k _ => h k)
  rw [tileBody_apply, hmax, h q]
  show _ = (Z (ix2 r q) - rowMax Z r) - Ideal.log (∑ k : Fin 10, Ideal.exp (Z (ix2 r k) - rowMax Z r))
  refine congrArg (fun s => _ - Ideal.log s) (Finset.sum_congr rfl fun k _ => ?_)
  rw [h k]

/-! ## The windows -/

/-- Where the windows sit at grid point t: the three row-tiled windows at block row t, everything else at block 0. -/
theorem index_facts : ∀ t : Fin cfg3.N, win3_0.index t (0 : Fin 2) = t.val
    ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The first stored value at (p, q) of tile t is the whole-array logits at row 2000·t + p, column q. -/
theorem logits_at (c : Dev nD) (t : Fin cfg3.N) (p : Fin 2000) (q : Fin 10) (r : Fin 100000) (hr : r.val = t.val * 2000 + p.val) :
    k3_pay1 (iblk3 V c 0 t) (iblk3 V c 1 t) (ix2 p q) = logits (V c main_v59) (V c main_v60) (ix2 r q) := by
  obtain ⟨e0, e1, e2, e3, e4, e5, e6, e7⟩ := index_facts t
  refine (logits_tile _ _ p q).trans ?_
  have h0 : ((cfg3.win 0).blk t).view.emb (ix2 p q) = ix2 r q := by
    funext a; apply Fin.ext
    match a with
    | ⟨0, _⟩ => show win3_0.index t (0 : Fin 2) * 2000 + 1 * p.val = r.val; omega
    | ⟨1, _⟩ => show win3_0.index t (1 : Fin 2) * 10 + 1 * q.val = q.val; omega
  have h1 : ((cfg3.win 1).blk t).view.emb (ix2 (0 : Fin 1) q)
      = ix2 (0 : Fin 1) (⟨((ix2 r q : S100000x10.Idx) 1).val, idx2_lt1 _⟩ : Fin 10) := by
    funext a; apply Fin.ext
    match a with
    | ⟨0, _⟩ => show win3_1.index t (0 : Fin 2) * 1 + 1 * 0 = 0; omega
    | ⟨1, _⟩ => show win3_1.index t (1 : Fin 2) * 10 + 1 * q.val = q.val; omega
  have key : ∀ (A : S100000x10.Idx → Ideal .f32) (B : S1x10.Idx → Ideal .f32),
      A (((cfg3.win 0).blk t).view.emb (ix2 p q)) + B (((cfg3.win 1).blk t).view.emb (ix2 (0 : Fin 1) q))
        = logits A B (ix2 r q) := by
    intro A B
    rw [h0, h1]
    rfl
  exact key (V c main_v59) (V c main_v60)

/-- What grid point t writes back to the first output is tile t of the logits. -/
theorem flushed_logits (c : Dev nD) (t : Fin cfg3.N) :
    (dat3 V c).flushed 2 t = ((cfg3.win 2).blk t).view.read (Elt Ideal) (logits (V c main_v59) (V c main_v60)) := by
  show (cfg3.win 2).cut (grid3.coords t) ((dat3 V c).after 2 t) = _
  rw [after3_2]
  unfold out3_2
  rw [View.canon_unit_zero zero_offsets]
  simp only [View.ld_unit_zero (S := S2000x10) zero_offsets, View.ld_unit_zero (S := S1x10) zero_offsets]
  obtain ⟨e0, e1, e2, e3, e4, e5, e6, e7⟩ := index_facts t
  have hN : cfg3.N = 50 := N_3
  have ht : t.val < 50 := hN ▸ t.isLt
  funext j
  obtain ⟨p, q, rfl⟩ : ∃ (p : Fin 2000) (q : Fin 10), j = ix2 p q := ⟨j 0, j 1, eq_ix2 j⟩
  have hp : p.val < 2000 := p.isLt
  refine (logits_at V c t p q ⟨t.val * 2000 + p.val, by omega⟩ rfl).trans ?_
  show logits (V c main_v59) (V c main_v60) _ = logits (V c main_v59) (V c main_v60) (((cfg3.win 2).blk t).view.emb (ix2 p q))
  refine congrArg _ ?_
  funext a; apply Fin.ext
  match a with
  | ⟨0, _⟩ => show t.val * 2000 + p.val = win3_2.index t (0 : Fin 2) * 2000 + 1 * p.val; omega
  | ⟨1, _⟩ => show q.val = win3_2.index t (1 : Fin 2) * 10 + 1 * q.val; omega

/-- What grid point t writes back to the second output is tile t of the log-softmax of the logits. -/
theorem flushed_logSoftmax (c : Dev nD) (t : Fin cfg3.N) :
    (dat3 V c).flushed 3 t
      = ((cfg3.win 3).blk t).view.read (Elt Ideal) (logSoftmax (logits (V c main_v59) (V c main_v60))) := by
  show (cfg3.win 3).cut (grid3.coords t) ((dat3 V c).after 3 t) = _
  rw [after3_3]
  unfold out3_3
  rw [View.canon_unit_zero zero_offsets]
  simp only [View.ld_unit_zero (S := S2000x10) zero_offsets, View.ld_unit_zero (S := S1x10) zero_offsets]
  obtain ⟨e0, e1, e2, e3, e4, e5, e6, e7⟩ := index_facts t
  have hN : cfg3.N = 50 := N_3
  have ht : t.val < 50 := hN ▸ t.isLt
  funext j
  obtain ⟨p, q, rfl⟩ : ∃ (p : Fin 2000) (q : Fin 10), j = ix2 p q := ⟨j 0, j 1, eq_ix2 j⟩
  have hp : p.val < 2000 := p.isLt
  have hemb : ((cfg3.win 3).blk t).view.emb (ix2 p q) = ix2 (⟨t.val * 2000 + p.val, by omega⟩ : Fin 100000) q := by
    funext a; apply Fin.ext
    match a with
    | ⟨0, _⟩ => show win3_3.index t (0 : Fin 2) * 2000 + 1 * p.val = t.val * 2000 + p.val; omega
    | ⟨1, _⟩ => show win3_3.index t (1 : Fin 2) * 10 + 1 * q.val = q.val; omega
  refine (congrFun (second_eq _ _) (ix2 p q)).trans ?_
  refine (softmax_rows _ (logits (V c main_v59) (V c main_v60)) p (⟨t.val * 2000 + p.val, by omega⟩ : Fin 100000) q
    (fun k => logits_at V c t p k ⟨t.val * 2000 + p.val, by omega⟩ rfl)).trans ?_
  show logSoftmax (logits (V c main_v59) (V c main_v60)) _ = logSoftmax (logits (V c main_v59) (V c main_v60)) (((cfg3.win 3).blk t).view.emb (ix2 p q))
  exact congrArg _ hemb.symm

/-- Row r of an output lies in the tile of grid point r / 2000. -/
theorem cover_logits (i : S100000x10.Idx) :
    ∃ t : Fin cfg3.N, (cfg3.win 2).flush t = true ∧ i ∈ ((cfg3.win 2).blk t).view.set := by
  have hi0 : (i 0).val < 100000 := (i 0).isLt
  have hi1 : (i 1).val < 10 := (i 1).isLt
  have hN : cfg3.N = 50 := N_3
  let t : Fin cfg3.N := ⟨(i 0).val / 2000, by rw [hN]; omega⟩
  obtain ⟨e0, e1, e2, e3, e4, e5, e6, e7⟩ := index_facts t
  refine ⟨t, flush3_2 t, ?_⟩
  show i ∈ ((View.whole main_v61_0).slice (win3_2.rect t)).set
  rw [View.set_slice_whole, Rect.mem_set_unit]
  intro a
  match a with
  | ⟨0, _⟩ =>
    show win3_2.index t (0 : Fin 2) * 2000 ≤ (i 0).val ∧ (i 0).val < win3_2.index t (0 : Fin 2) * 2000 + 2000
    rw [e4]; show (i 0).val / 2000 * 2000 ≤ (i 0).val ∧ (i 0).val < (i 0).val / 2000 * 2000 + 2000; omega
  | ⟨1, _⟩ =>
    show win3_2.index t (1 : Fin 2) * 10 ≤ (i 1).val ∧ (i 1).val < win3_2.index t (1 : Fin 2) * 10 + 10
    rw [e5]; omega

theorem cover_logSoftmax (i : S100000x10.Idx) :
    ∃ t : Fin cfg3.N, (cfg3.win 3).flush t = true ∧ i ∈ ((cfg3.win 3).blk t).view.set := by
  have hi0 : (i 0).val < 100000 := (i 0).isLt
  have hi1 : (i 1).val < 10 := (i 1).isLt
  have hN : cfg3.N = 50 := N_3
  let t : Fin cfg3.N := ⟨(i 0).val / 2000, by rw [hN]; omega⟩
  obtain ⟨e0, e1, e2, e3, e4, e5, e6, e7⟩ := index_facts t
  refine ⟨t, flush3_3 t, ?_⟩
  show i ∈ ((View.whole main_v61_1).slice (win3_3.rect t)).set
  rw [View.set_slice_whole, Rect.mem_set_unit]
  intro a
  match a with
  | ⟨0, _⟩ =>
    show win3_3.index t (0 : Fin 2) * 2000 ≤ (i 0).val ∧ (i 0).val < win3_3.index t (0 : Fin 2) * 2000 + 2000
    rw [e6]; show (i 0).val / 2000 * 2000 ≤ (i 0).val ∧ (i 0).val < (i 0).val / 2000 * 2000 + 2000; omega
  | ⟨1, _⟩ =>
    show win3_3.index t (1 : Fin 2) * 10 ≤ (i 1).val ∧ (i 1).val < win3_3.index t (1 : Fin 2) * 10 + 10
    rw [e7]; omega

/-- The two output arrays after the call. -/
theorem final_logits (c : Dev nD) : (dat3 V c).arrAt 2 cfg3.N = logits (V c main_v59) (V c main_v60) :=
  (dat3 V c).arrAt_eq_of_cover 2 (logits (V c main_v59) (V c main_v60)) (fun t _ => flushed_logits V c t) (cover_logits)

theorem final_logSoftmax (c : Dev nD) :
    (dat3 V c).arrAt 3 cfg3.N = logSoftmax (logits (V c main_v59) (V c main_v60)) :=
  (dat3 V c).arrAt_eq_of_cover 3 (logSoftmax (logits (V c main_v59) (V c main_v60))) (fun t _ => flushed_logSoftmax V c t) (cover_logSoftmax)

end Cert.KernelIdeal.BiasLogSoftmax

end
-- ==== Proof.StageLaws.lean ====
/-
  Each pallas_call's whole-array function is the reference's operation at the same place, read index by index.
  The two matrix products: the reference's dot_general at (r, j) is the same sum over k of x (r, k) · w (k, j).
  Bias and ReLU: the reference broadcasts the bias vector to a row and then down the rows, adds, and takes the maximum
  with a broadcast zero; the kernel program reshapes the bias vector to a row. Both read the bias at the column.
  Bias and log-softmax: the reference's log-softmax is max-reduce, broadcast, subtract, exponential, sum-reduce, logarithm,
  broadcast, subtract; read at (r, j) it is (z (r, j) - M r) - log (sum over k of exp (z (r, k) - M r)) with M r the
  maximum of -infinity and row r's entries (the reduction's start value 0 adds nothing to the sum).
-/
import proofs.«129382_j17308718202892_1_alg».proof.Proof.RefReadPatched
import proofs.«129382_j17308718202892_1_alg».proof.Proof.ReferenceRun
import proofs.«129382_j17308718202892_1_alg».proof.Proof.FeatureProduct
import proofs.«129382_j17308718202892_1_alg».proof.Proof.BiasRelu
import proofs.«129382_j17308718202892_1_alg».proof.Proof.HiddenProduct
import proofs.«129382_j17308718202892_1_alg».proof.Proof.BiasLogSoftmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.StageLaws

open Cert.ReferenceIdeal Cert.ReferenceIdeal.Gen Cert.ReferenceIdeal.ReadP
open Idealize.ShloMosaic Idealize.ShloMosaic.TcCoe Idealize.ShloMosaic.ValueIdx

/-! ## The matrix products -/

theorem featureProduct_eq (x0 : (⟨S100000x256, .f32⟩ : BufTy).Contents (Elt Ideal)) (x2 : (⟨S256x128, .f32⟩ : BufTy).Contents (Elt Ideal)) :
    Cert.KernelIdeal.FeatureProduct.rowsByColumns x0 x2 = val_main_v30 (F := Ideal) x0 x2 := by
  funext i
  rw [val_main_v30_apply]
  show ∑ k : Fin 256, x0 (ix2 (⟨(i 0).val, idx2_lt0 i⟩ : Fin 100000) k) * x2 (ix2 k (⟨(i 1).val, idx2_lt1 i⟩ : Fin 128)) = _
  refine Finset.sum_congr rfl fun k _ => ?_
  have el : lidx_main_v30 i k = ix2 (⟨(i 0).val, idx2_lt0 i⟩ : Fin 100000) k :=
    funext fun a => by match a with | ⟨0, _⟩ => rfl | ⟨1, _⟩ => rfl
  have er : ridx_main_v30 i k = ix2 k (⟨(i 1).val, idx2_lt1 i⟩ : Fin 128) :=
    funext fun a => by match a with | ⟨0, _⟩ => rfl | ⟨1, _⟩ => rfl
  rw [el, er]

theorem hiddenProduct_eq (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x10, .f32⟩ : BufTy).Contents (Elt Ideal)) :
    Cert.KernelIdeal.HiddenProduct.rowsByColumns (val_main_v47 (F := Ideal) x0 x1 x2 x3) x4 = val_main_v48 (F := Ideal) x0 x1 x2 x3 x4 := by
  funext i
  rw [val_main_v48_apply]
  generalize val_main_v47 (F := Ideal) x0 x1 x2 x3 = y
  show ∑ k : Fin 128, y (ix2 (⟨(i 0).val, idx2_lt0 i⟩ : Fin 100000) k) * x4 (ix2 k (⟨(i 1).val, idx2_lt1 i⟩ : Fin 10)) = _
  refine Finset.sum_congr rfl fun k _ => ?_
  have el : lidx_main_v48 i k = ix2 (⟨(i 0).val, idx2_lt0 i⟩ : Fin 100000) k :=
    funext fun a => by match a with | ⟨0, _⟩ => rfl | ⟨1, _⟩ => rfl
  have er : ridx_main_v48 i k = ix2 k (⟨(i 1).val, idx2_lt1 i⟩ : Fin 10) :=
    funext fun a => by match a with | ⟨0, _⟩ => rfl | ⟨1, _⟩ => rfl
  rw [el, er]

/-! ## Bias and ReLU -/

theorem biasRelu_eq (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) :
    Cert.KernelIdeal.BiasRelu.biasRelu (val_main_v43 (F := Ideal) x0 x1 x2)
        (shapeCast Cert.KernelIdeal.S1x128 x3 Cert.KernelIdeal.Gen.shapeCasts_S128_S1x128)
      = val_main_v47 (F := Ideal) x0 x1 x2 x3 := by
  funext i
  rw [val_main_v47_apply, val_main_v46_apply, val_main_v45_apply, val_main_v44_apply, val_main_call1_v0_apply, val_main_call1_cst_apply]
  generalize val_main_v43 (F := Ideal) x0 x1 x2 = y
  show FloatOps.maximumf (F := Ideal) (FloatOps.addf (y i)
      (shapeCast (⟨2, ![1, 128]⟩ : Shape) x3 Cert.KernelIdeal.Gen.shapeCasts_S128_S1x128 (ix2 (0 : Fin 1) (⟨(i 1).val, idx2_lt1 i⟩ : Fin 128)))) _ = _
  rw [shapeCast_a_1a_apply]
  have hi : (ix1 (⟨(i 1).val, idx2_lt1 i⟩ : Fin 128) : S128.Idx) = idx_main_v44 (idx_main_v45 i) :=
    funext fun a => by match a with | ⟨0, _⟩ => rfl
  rw [hi]

/-! ## Bias and log-softmax -/

theorem logits_eq (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x10, .f32⟩ : BufTy).Contents (Elt Ideal)) (x5 : (⟨S10, .f32⟩ : BufTy).Contents (Elt Ideal)) :
    Cert.KernelIdeal.BiasLogSoftmax.logits (val_main_v61 (F := Ideal) x0 x1 x2 x3 x4)
        (shapeCast Cert.KernelIdeal.S1x10 x5 Cert.KernelIdeal.Gen.shapeCasts_S10_S1x10)
      = val_main_v64 (F := Ideal) x0 x1 x2 x3 x4 x5 := by
  funext i
  rw [val_main_v64_apply, val_main_v63_apply, val_main_v62_apply]
  generalize val_main_v61 (F := Ideal) x0 x1 x2 x3 x4 = y
  show FloatOps.addf (F := Ideal) (y i)
      (shapeCast (⟨2, ![1, 10]⟩ : Shape) x5 Cert.KernelIdeal.Gen.shapeCasts_S10_S1x10 (ix2 (0 : Fin 1) (⟨(i 1).val, idx2_lt1 i⟩ : Fin 10))) = _
  rw [shapeCast_a_1a_apply]
  have hi : (ix1 (⟨(i 1).val, idx2_lt1 i⟩ : Fin 10) : S10.Idx) = idx_main_v62 (idx_main_v63 i) :=
    funext fun a => by match a with | ⟨0, _⟩ => rfl
  rw [hi]

open Cert.KernelIdeal.BiasLogSoftmax (rowMax logSoftmax)

/-- A vector over the rows broadcast to a column and then along the columns reads, at (r, j), the vector at r. -/
theorem column_apply (y : S100000.Idx → Ideal .f32) (r : Fin 100000) (j : Fin 10) :
    broadcastInDim S100000x10 ![0, 1] bcast_S100000x1_S100000x10_0_1 (broadcastInDim S100000x1 ![0] bcast_S100000_S100000x1_0 y) (ix2 r j)
      = y (ix1 r) :=
  (broadcastInDim_apply _ bcast_S100000x1_S100000x10_0_1 _ (ix2 r j) (ix2 r (0 : Fin 1)) (fun a => match a with
    | ⟨0, _⟩ => by show r.val = if (100000 : Nat) = 1 then 0 else r.val; rw [if_neg (by decide)]
    | ⟨1, _⟩ => by show 0 = if (1 : Nat) = 1 then 0 else j.val; rw [if_pos rfl])).trans
  (broadcastInDim_apply _ bcast_S100000_S100000x1_0 y (ix2 r (0 : Fin 1)) (ix1 r) (fun a => match a with
    | ⟨0, _⟩ => by show r.val = if (100000 : Nat) = 1 then 0 else r.val; rw [if_neg (by decide)]))

/-- The host's logarithm and exponential read at an index. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- The reference's row maximum: the broadcast -infinity against the max-reduce of the row from -infinity. -/
theorem hostRowMax_apply (z : S100000x10.Idx → Ideal .f32) (r : Fin 100000) :
    maximumf (broadcastInDim S100000 ![] bcast_S_S100000 (constant (F := Ideal) S_ .f32 0xFF800000#32))
        (Host.reduce FloatOps.maximumf z (constant (F := Ideal) S_ .f32 0xFF800000#32) reducesTo_S100000x10_S100000_d1 h_S_) (ix1 r)
      = rowMax z r := by
  rw [maximumf_apply, broadcastInDim_apply _ bcast_S_S100000 _ (ix1 r) ix0 (fun a => a.elim0),
    Host.reduce_eq_fold_single FloatOps.maximumf z _ reducesTo_S100000x10_S100000_d1 (by decide) h_S_ (ix1 r)]
  unfold rowMax
  refine congrArg₂ max rfl ?_
  show (Finset.univ : Finset (Fin 10)).fold max (Ideal.ofBits .f32 0xFF800000#32) (fun k => z ((by decide : S100000x10.Reduces [1] S100000).lift (ix1 r) k)) = _
  refine Finset.fold_congr fun k _ => congrArg z ?_
  funext a; apply Fin.ext
  match a with
  | ⟨0, _⟩ => rfl
  | ⟨1, _⟩ => rfl

/-- The reference's row sum from the start value 0. -/
theorem hostRowSum_apply (e : S100000x10.Idx → Ideal .f32) (r : Fin 100000) :
    Host.reduceAdd e (constant (F := Ideal) S_ .f32 0x00000000#32) reducesTo_S100000x10_S100000_d1 h_S_ (ix1 r)
      = ∑ k : Fin 10, e (ix2 r k) := by
  simp only [Host.reduceAdd, Ideal.hostReduceAdd_def]
  rw [Ideal.hostReduceAdd_single reducesTo_S100000x10_S100000_d1 (by decide)]
  show Ideal.ofBits .f32 0x00000000#32 + ∑ k : Fin 10, e ((by decide : S100000x10.Reduces [1] S100000).lift (ix1 r) k) = _
  rw [Ideal.ofBits_zero_f32, zero_add]
  refine Finset.sum_congr rfl fun k _ => congrArg e ?_
  funext a; apply Fin.ext
  match a with
  | ⟨0, _⟩ => rfl
  | ⟨1, _⟩ => rfl

/-- The reference's shifted entry. -/
theorem hostShifted_apply (z : S100000x10.Idx → Ideal .f32) (r : Fin 100000) (k : Fin 10) :
    subf z (broadcastInDim S100000x10 ![0, 1] bcast_S100000x1_S100000x10_0_1 (broadcastInDim S100000x1 ![0] bcast_S100000_S100000x1_0
      (maximumf (broadcastInDim S100000 ![] bcast_S_S100000 (constant (F := Ideal) S_ .f32 0xFF800000#32))
        (Host.reduce FloatOps.maximumf z (constant (F := Ideal) S_ .f32 0xFF800000#32) reducesTo_S100000x10_S100000_d1 h_S_)))) (ix2 r k)
      = z (ix2 r k) - rowMax z r := by
  rw [subf_apply, column_apply, hostRowMax_apply]

/-- The reference's log-softmax is the row-wise log-softmax. -/
theorem hostLogSoftmax_eq (z : (⟨S100000x10, .f32⟩ : BufTy).Contents (Elt Ideal)) :
    Cert.ReferenceIdeal.Hand.hostLogSoftmax (F := Ideal) z = logSoftmax z := by
  funext i
  obtain ⟨r, q, rfl⟩ : ∃ (r : Fin 100000) (q : Fin 10), i = ix2 r q := ⟨i 0, i 1, eq_ix2 i⟩
  unfold Cert.ReferenceIdeal.Hand.hostLogSoftmax
  rw [subf_apply, hostShifted_apply z r q,
    broadcastInDim_apply _ bcast_S100000x1_S100000x10_0_1 _ (ix2 r q) (ix2 r (0 : Fin 1)) (fun a => match a with
      | ⟨0, _⟩ => by show r.val = if (100000 : Nat) = 1 then 0 else r.val; rw [if_neg (by decide)]
      | ⟨1, _⟩ => by show 0 = if (1 : Nat) = 1 then 0 else q.val; rw [if_pos rfl]),
    hostLog_apply,
    broadcastInDim_apply _ bcast_S100000_S100000x1_0 _ (ix2 r (0 : Fin 1)) (ix1 r) (fun a => match a with
      | ⟨0, _⟩ => by show r.val = if (100000 : Nat) = 1 then 0 else r.val; rw [if_neg (by decide)]),
    hostRowSum_apply]
  show _ = (z (ix2 r q) - rowMax z r) - Ideal.log (∑ k : Fin 10, Ideal.exp (z (ix2 r k) - rowMax z r))
  refine congrArg (fun s => _ - Ideal.log s) (Finset.sum_congr rfl fun k _ => ?_)
  rw [hostExp_apply, hostShifted_apply z r k]

theorem logSoftmax_eq (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x10, .f32⟩ : BufTy).Contents (Elt Ideal)) (x5 : (⟨S10, .f32⟩ : BufTy).Contents (Elt Ideal)) :
    logSoftmax (val_main_v64 (F := Ideal) x0 x1 x2 x3 x4 x5) = val_main_v65 (F := Ideal) x0 x1 x2 x3 x4 x5 := by
  rw [Cert.ReferenceIdeal.Hand.stage_logSoftmax, hostLogSoftmax_eq]

end Cert.StageLaws

end
-- ==== Proof.Stages.lean ====
/-
  The kernel program's buffer contents, boundary by boundary, as the reference's stage functions of the six arguments.
  The kernel program is: host operations (the edge lists with self-loops appended, the symmetric normalisation weights),
  the features-times-weights call, host operations (gather the transformed rows along the source list, scale by the edge
  weight, scatter-add along the destination list), the bias-and-ReLU call, the hidden-times-weights call, the same
  aggregation again, and the bias-and-log-softmax call. The reference program performs the same host operations around
  plain matrix products, a maximum with zero and a log-softmax written as host operations. So at every boundary the
  contents of each buffer that is read later equal one of the reference's stage values of the same arguments:
  between the calls because the same host operations are applied to equal operands, and across each call because the
  call's whole-array function is the reference's operation read index by index.
-/
import proofs.«129382_j17308718202892_1_alg».proof.Proof.Gen.KernelIdeal.Frame
import proofs.«129382_j17308718202892_1_alg».proof.Proof.RefReadPatched
import proofs.«129382_j17308718202892_1_alg».proof.Proof.FeatureProduct
import proofs.«129382_j17308718202892_1_alg».proof.Proof.BiasRelu
import proofs.«129382_j17308718202892_1_alg».proof.Proof.HiddenProduct
import proofs.«129382_j17308718202892_1_alg».proof.Proof.BiasLogSoftmax
import proofs.«129382_j17308718202892_1_alg».proof.Proof.StageLaws
import Idealize.ShloMosaic.Lib.ValueLayout
import Idealize.ShloMosaic.Lib.StableHlo.Run

set_option maxRecDepth 16384

noncomputable section

namespace Cert.Stages

open Cert.KernelIdeal Cert.KernelIdeal.Gen
open Cert.ReferenceIdeal.ReadP
open Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg) (c : Dev nD)

/-- A buffer that no operation of a stretch of host operations writes keeps its contents over the stretch. -/
macro "unwritten" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Contents passed through a called function's typed buffers -/

/-- Contents carried into a buffer of their own type and back are unchanged. -/
theorem ofBuf_toBuf {T : BufTy} (x : StableHlo.TRef sig T) (v : T.Contents (Elt Ideal)) : x.ofBuf (x.toBuf v) = v := by
  obtain ⟨r, h, h2, h3⟩ := x
  subst h
  rfl

/-- The buffers around the where-call hold contents of the call's types as they stand. -/
theorem toBuf_selected (v : (⟨S100000, .f32⟩ : BufTy).Contents (Elt Ideal)) :
    (StableHlo.TRef.of (T := ⟨S100000, .f32⟩) main_v14).toBuf v = v := rfl
theorem ofBuf_positive (u : main_v12.ty.Contents (Elt Ideal)) :
    (StableHlo.TRef.of (T := ⟨S100000, .i1⟩) main_v12).ofBuf u = u := rfl
theorem ofBuf_rsqrt (u : main_v13.ty.Contents (Elt Ideal)) :
    (StableHlo.TRef.of (T := ⟨S100000, .f32⟩) main_v13).ofBuf u = u := rfl
theorem ofBuf_zero (u : main_cst_2.ty.Contents (Elt Ideal)) :
    (StableHlo.TRef.of (T := ⟨S_, .f32⟩) main_cst_2).ofBuf u = u := rfl

/-! ## Before the first call -/

/-- An argument array is as launched when the first call is entered. -/
theorem entry_arg (b : Ref sig .tc)
    (h0 : StableHlo.after hostOps0 (W0 m ρ c) (Proc.devRef .tc b) = W0 m ρ c (Proc.devRef .tc b))
    (h1 : StableHlo.after hostOps0_1 (W1 m ρ c) (Proc.devRef .tc b) = W1 m ρ c (Proc.devRef .tc b))
    (h2 : StableHlo.after hostOps0_2 (W2 m ρ c) (Proc.devRef .tc b) = W2 m ρ c (Proc.devRef .tc b)) :
    W3 m ρ c (Proc.devRef .tc b) = m ((c.tc : Thread nD τ).loc b) :=
  h2.trans (h1.trans h0)

theorem entry_arg0 : W3 m ρ c (Proc.devRef .tc main_arg0) = m ((c.tc : Thread nD τ).loc main_arg0) :=
  entry_arg m ρ c main_arg0 (by unwritten hostOps0) (by unwritten hostOps0_1) (by unwritten hostOps0_2)
theorem entry_arg2 : W3 m ρ c (Proc.devRef .tc main_arg2) = m ((c.tc : Thread nD τ).loc main_arg2) :=
  entry_arg m ρ c main_arg2 (by unwritten hostOps0) (by unwritten hostOps0_1) (by unwritten hostOps0_2)
theorem entry_arg3 : W3 m ρ c (Proc.devRef .tc main_arg3) = m ((c.tc : Thread nD τ).loc main_arg3) :=
  entry_arg m ρ c main_arg3 (by unwritten hostOps0) (by unwritten hostOps0_1) (by unwritten hostOps0_2)
theorem entry_arg4 : W3 m ρ c (Proc.devRef .tc main_arg4) = m ((c.tc : Thread nD τ).loc main_arg4) :=
  entry_arg m ρ c main_arg4 (by unwritten hostOps0) (by unwritten hostOps0_1) (by unwritten hostOps0_2)
theorem entry_arg5 : W3 m ρ c (Proc.devRef .tc main_arg5) = m ((c.tc : Thread nD τ).loc main_arg5) :=
  entry_arg m ρ c main_arg5 (by unwritten hostOps0) (by unwritten hostOps0_1) (by unwritten hostOps0_2)

/-- The source list with the self-loops appended. -/
theorem entry_src : W3 m ρ c (Proc.devRef .tc main_v5) = val_main_v5 (F := Ideal) (m ((c.tc : Thread nD τ).loc main_arg1)) := by
  show StableHlo.after hostOps0_2 (StableHlo.after hostOps0_1 (StableHlo.after hostOps0 (W0 m ρ c))) (Proc.devRef .tc main_v5) = _
  after_results_simp
  rfl

/-- The destination list with the self-loops appended. -/
theorem entry_dst : W3 m ρ c (Proc.devRef .tc main_v6) = val_main_v6 (F := Ideal) (m ((c.tc : Thread nD τ).loc main_arg1)) := by
  show StableHlo.after hostOps0_2 (StableHlo.after hostOps0_1 (StableHlo.after hostOps0 (W0 m ρ c))) (Proc.devRef .tc main_v6) = _
  after_results_simp
  rfl

/-- The edge weights: the product of the two end points' inverse square-root degrees. -/
theorem entry_weight : W3 m ρ c (Proc.devRef .tc main_v29) = val_main_v29 (F := Ideal) (m ((c.tc : Thread nD τ).loc main_arg1)) := by
  show StableHlo.after hostOps0_2 (StableHlo.after hostOps0_1 (StableHlo.after hostOps0 (W0 m ρ c))) (Proc.devRef .tc main_v29) = _
  after_results_simp
  simp only [ofBuf_toBuf, toBuf_selected, ofBuf_positive, ofBuf_rsqrt, ofBuf_zero]
  rfl

/-! ## Buffers carried unchanged across calls and stretches -/

/-- A buffer that the first call does not use as an array is as it was at the call's entry. -/
theorem past_first (b : Ref sig .tc) (h0 : ∀ w, Pipeline.arrRef spec0 w ≠ b) :
    W4 m ρ c (Proc.devRef .tc b) = W3 m ρ c (Proc.devRef .tc b) := W4_of_ne m ρ c b h0

/-- … and, if the second stretch of host operations does not write it and the second call does not use it, after the
    second call. -/
theorem past_second (b : Ref sig .tc) (h0 : ∀ w, Pipeline.arrRef spec0 w ≠ b)
    (h1 : StableHlo.after hostOps1 (W4 m ρ c) (Proc.devRef .tc b) = W4 m ρ c (Proc.devRef .tc b))
    (h2 : ∀ w, Pipeline.arrRef spec1 w ≠ b) :
    W6 m ρ c (Proc.devRef .tc b) = W3 m ρ c (Proc.devRef .tc b) :=
  (W6_of_ne m ρ c b h2).trans (h1.trans (W4_of_ne m ρ c b h0))

/-- … and after the third call, if that does not use it either. -/
theorem past_third (b : Ref sig .tc) (h0 : ∀ w, Pipeline.arrRef spec0 w ≠ b)
    (h1 : StableHlo.after hostOps1 (W4 m ρ c) (Proc.devRef .tc b) = W4 m ρ c (Proc.devRef .tc b))
    (h2 : ∀ w, Pipeline.arrRef spec1 w ≠ b) (h3 : ∀ w, Pipeline.arrRef spec2 w ≠ b) :
    W7 m ρ c (Proc.devRef .tc b) = W3 m ρ c (Proc.devRef .tc b) :=
  (W7_of_ne m ρ c b h3).trans (past_second m ρ c b h0 h1 h2)

/-! ## The first call and the aggregation after it -/

theorem first_product : W4 m ρ c (Proc.devRef .tc main_v30) = val_main_v30 (F := Ideal) (m ((c.tc : Thread nD τ).loc main_arg0)) (m ((c.tc : Thread nD τ).loc main_arg2)) := by
  refine (W4_arr m ρ c 2).trans ?_
  refine (Cert.KernelIdeal.FeatureProduct.final (V3 m ρ) c).trans ?_
  show Cert.KernelIdeal.FeatureProduct.rowsByColumns (W3 m ρ c (Proc.devRef .tc main_arg0)) (W3 m ρ c (Proc.devRef .tc main_arg2)) = _
  rw [entry_arg0, entry_arg2]
  exact Cert.StageLaws.featureProduct_eq _ _

theorem first_src : W4 m ρ c (Proc.devRef .tc main_v5) = val_main_v5 (F := Ideal) (m ((c.tc : Thread nD τ).loc main_arg1)) :=
  (past_first m ρ c main_v5 (by decide)).trans (entry_src m ρ c)
theorem first_dst : W4 m ρ c (Proc.devRef .tc main_v6) = val_main_v6 (F := Ideal) (m ((c.tc : Thread nD τ).loc main_arg1)) :=
  (past_first m ρ c main_v6 (by decide)).trans (entry_dst m ρ c)
theorem first_weight : W4 m ρ c (Proc.devRef .tc main_v29) = val_main_v29 (F := Ideal) (m ((c.tc : Thread nD τ).loc main_arg1)) :=
  (past_first m ρ c main_v29 (by decide)).trans (entry_weight m ρ c)
theorem first_arg3 : W4 m ρ c (Proc.devRef .tc main_arg3) = m ((c.tc : Thread nD τ).loc main_arg3) :=
  (past_first m ρ c main_arg3 (by decide)).trans (entry_arg3 m ρ c)

/-- The first aggregation: gather along the sources, scale by the edge weights, scatter-add along the destinations. -/
theorem second_aggregate : W5 m ρ c (Proc.devRef .tc main_v43)
    = val_main_v43 (F := Ideal) (m ((c.tc : Thread nD τ).loc main_arg0)) (m ((c.tc : Thread nD τ).loc main_arg1)) (m ((c.tc : Thread nD τ).loc main_arg2)) := by
  show StableHlo.after hostOps1 (W4 m ρ c) (Proc.devRef .tc main_v43) = _
  after_results_simp
  rw [first_product, first_src, first_dst, first_weight]
  rfl

/-- The first bias vector as a row. -/
theorem second_bias : W5 m ρ c (Proc.devRef .tc main_v44)
    = shapeCast S1x128 (m ((c.tc : Thread nD τ).loc main_arg3)) shapeCasts_S128_S1x128 := by
  show StableHlo.after hostOps1 (W4 m ρ c) (Proc.devRef .tc main_v44) = _
  after_results_simp
  rw [first_arg3]
  rfl

/-! ## The second and third calls -/

theorem relu_out : W6 m ρ c (Proc.devRef .tc main_v45)
    = val_main_v47 (F := Ideal) (m ((c.tc : Thread nD τ).loc main_arg0)) (m ((c.tc : Thread nD τ).loc main_arg1)) (m ((c.tc : Thread nD τ).loc main_arg2)) (m ((c.tc : Thread nD τ).loc main_arg3)) := by
  refine (W6_arr m ρ c 2).trans ?_
  refine (Cert.KernelIdeal.BiasRelu.final (V5 m ρ) c).trans ?_
  show Cert.KernelIdeal.BiasRelu.biasRelu (W5 m ρ c (Proc.devRef .tc main_v43)) (W5 m ρ c (Proc.devRef .tc main_v44)) = _
  rw [second_aggregate, second_bias]
  exact Cert.StageLaws.biasRelu_eq _ _ _ _

theorem relu_arg4 : W6 m ρ c (Proc.devRef .tc main_arg4) = m ((c.tc : Thread nD τ).loc main_arg4) :=
  (past_second m ρ c main_arg4 (by decide) (by unwritten hostOps1) (by decide)).trans (entry_arg4 m ρ c)

theorem hidden_product : W7 m ρ c (Proc.devRef .tc main_v46)
    = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W7_arr m ρ c 2).trans ?_
  refine (Cert.KernelIdeal.HiddenProduct.final (V6 m ρ) c).trans ?_
  show Cert.KernelIdeal.HiddenProduct.rowsByColumns (W6 m ρ c (Proc.devRef .tc main_v45)) (W6 m ρ c (Proc.devRef .tc main_arg4)) = _
  rw [relu_out, relu_arg4]
  exact Cert.StageLaws.hiddenProduct_eq _ _ _ _ _

theorem third_src : W7 m ρ c (Proc.devRef .tc main_v5) = val_main_v5 (F := Ideal) (m ((c.tc : Thread nD τ).loc main_arg1)) :=
  (past_third m ρ c main_v5 (by decide) (by unwritten hostOps1) (by decide) (by decide)).trans (entry_src m ρ c)
theorem third_dst : W7 m ρ c (Proc.devRef .tc main_v6) = val_main_v6 (F := Ideal) (m ((c.tc : Thread nD τ).loc main_arg1)) :=
  (past_third m ρ c main_v6 (by decide) (by unwritten hostOps1) (by decide) (by decide)).trans (entry_dst m ρ c)
theorem third_weight : W7 m ρ c (Proc.devRef .tc main_v29) = val_main_v29 (F := Ideal) (m ((c.tc : Thread nD τ).loc main_arg1)) :=
  (past_third m ρ c main_v29 (by decide) (by unwritten hostOps1) (by decide) (by decide)).trans (entry_weight m ρ c)
theorem third_arg5 : W7 m ρ c (Proc.devRef .tc main_arg5) = m ((c.tc : Thread nD τ).loc main_arg5) :=
  (past_third m ρ c main_arg5 (by decide) (by unwritten hostOps1) (by decide) (by decide)).trans (entry_arg5 m ρ c)

/-! ## The second aggregation and the last call -/

theorem fourth_aggregate : W8 m ρ c (Proc.devRef .tc main_v59)
    = val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps3 (W7 m ρ c) (Proc.devRef .tc main_v59) = _
  after_results_simp
  rw [hidden_product, third_src, third_dst, third_weight]
  rfl

theorem fourth_bias : W8 m ρ c (Proc.devRef .tc main_v60)
    = shapeCast S1x10 (m ((c.tc : Thread nD τ).loc main_arg5)) shapeCasts_S10_S1x10 := by
  show StableHlo.after hostOps3 (W7 m ρ c) (Proc.devRef .tc main_v60) = _
  after_results_simp
  rw [third_arg5]
  rfl

/-- The kernel program's first result array holds the reference's logits stage of the arguments. -/
theorem result_logits : W9 m ρ c (Proc.devRef .tc main_v61_0)
    = val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W9_arr m ρ c 2).trans ?_
  refine (Cert.KernelIdeal.BiasLogSoftmax.final_logits (V8 m ρ) c).trans ?_
  show Cert.KernelIdeal.BiasLogSoftmax.logits (W8 m ρ c (Proc.devRef .tc main_v59)) (W8 m ρ c (Proc.devRef .tc main_v60)) = _
  rw [fourth_aggregate, fourth_bias]
  exact Cert.StageLaws.logits_eq _ _ _ _ _ _

/-- The kernel program's second result array holds the reference's log-softmax stage of the arguments. -/
theorem result_logSoftmax : W9 m ρ c (Proc.devRef .tc main_v61_1)
    = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W9_arr m ρ c 3).trans ?_
  refine (Cert.KernelIdeal.BiasLogSoftmax.final_logSoftmax (V8 m ρ) c).trans ?_
  show Cert.KernelIdeal.BiasLogSoftmax.logSoftmax (Cert.KernelIdeal.BiasLogSoftmax.logits (W8 m ρ c (Proc.devRef .tc main_v59)) (W8 m ρ c (Proc.devRef .tc main_v60))) = _
  rw [fourth_aggregate, fourth_bias, Cert.StageLaws.logits_eq]
  exact Cert.StageLaws.logSoftmax_eq _ _ _ _ _ _

end Cert.Stages

end
-- ==== Proof.lean ====
/-
  A two-layer graph convolution: the kernel program against its plain reference, over the extended reals.
  Both programs compute, from node features x [100000, 256], an edge list [2, 1600000], two weight matrices and two bias
  vectors: the edge list with one self-loop per node appended; the edge weights, the product of the inverse square roots
  of the two end points' in-degrees; h = x · W1; the weighted sum over each node's incoming edges of the rows of h; bias
  and maximum with zero; a second product with W2 and the same weighted sum; bias; and a row-wise log-softmax. They
  return the biased second aggregate and its log-softmax.
  The kernel program runs the two matrix products, the bias-and-ReLU and the bias-and-log-softmax as four tiled
  pallas_calls (2000 rows of the 100000 per grid point, 50 points each) and everything else as the same host
  operations the reference uses. Over the extended reals a rounding to bf16 is the identity and sums do not depend on
  how they are tiled, so each call's output array is, index by index, the reference's operation at the same place of
  the same operands; the host operations in between are the same functions of equal operands. No law of arithmetic is
  used: the two sides are the same expression at every index, which is why the precondition is never opened.
  The three frames: the two kernel programs' are the generated ones; the reference's is its run with the results
  dropped. The idealisation rewrote nothing, so its claim is trivial.
-/
import proofs.«129382_j17308718202892_1_alg».proof.Defs
import proofs.«129382_j17308718202892_1_alg».proof.Proof.Gen.Kernel
import proofs.«129382_j17308718202892_1_alg».proof.Proof.Gen.Kernel.Skeleton
import proofs.«129382_j17308718202892_1_alg».proof.Proof.Gen.Kernel.Launch
import proofs.«129382_j17308718202892_1_alg».proof.Proof.Gen.Kernel.Points
import proofs.«129382_j17308718202892_1_alg».proof.Proof.Gen.Kernel.Frame
import proofs.«129382_j17308718202892_1_alg».proof.Proof.Gen.KernelIdeal
import proofs.«129382_j17308718202892_1_alg».proof.Proof.Gen.KernelIdeal.Skeleton
import proofs.«129382_j17308718202892_1_alg».proof.Proof.Gen.KernelIdeal.Launch
import proofs.«129382_j17308718202892_1_alg».proof.Proof.Gen.KernelIdeal.Points
import proofs.«129382_j17308718202892_1_alg».proof.Proof.Gen.KernelIdeal.Frame
import proofs.«129382_j17308718202892_1_alg».proof.Proof.Gen.ReferenceIdeal
import proofs.«129382_j17308718202892_1_alg».proof.Proof.Gen.Pre_finite_inputs
import proofs.«129382_j17308718202892_1_alg».proof.Proof.KernelRun
import proofs.«129382_j17308718202892_1_alg».proof.Proof.ReferenceRun
import proofs.«129382_j17308718202892_1_alg».proof.Proof.Stages
import Idealize.ShloMosaic.Adequacy
import Idealize.ShloMosaic.Init

noncomputable section

namespace Cert.Proof

open Idealize.ShloMosaic Idealize.ShloMosaic.TcCoe Idealize.SL.Sem
open Cert.ReferenceIdeal.ReadP

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference's frame: its run with the two results dropped. -/
theorem frame_reference : @Cert.frame_ReferenceIdeal Cert.ReferenceIdeal.Gen.facts Cert.Pre_finite_inputs.Gen.facts :=
  fun m ρ _ =>
    (θ_run Cert.ReferenceIdeal.defs _ _).mono (fun _ h c => (h c).2.2) (Cert.ReferenceIdeal.Hand.run (F := Ideal) m ρ)

theorem preserves : Cert.preserves_Kernel_KernelIdeal := trivial

/-- Both programs end with the reference's two stage values of the (agreeing) arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun _ h c =>
      ⟨(h c).1.trans (Cert.Stages.result_logits m ρ c), (h c).2.1.trans (Cert.Stages.result_logSoftmax m ρ c), (h c).2.2⟩)
      (Cert.KernelIdeal.Final.run (F := Ideal) m ρ)
  · refine (θ_run Cert.ReferenceIdeal.defs _ _).mono (fun _ h c => ?_) (Cert.ReferenceIdeal.Hand.run (F := Ideal) m' ρ')
    obtain ⟨a0, a1, a2, a3, a4, a5⟩ := hagree c
    refine ⟨(h c).1.trans ?_, (h c).2.1.trans ?_, (h c).2.2⟩
    · rw [a0, a1, a2, a3, a4, a5]
    · rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
